-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2x1024x1024 : Shape := ⟨4, ![16, 2, 1024, 1024]⟩
abbrev S16x1x1024x1024 : Shape := ⟨4, ![16, 1, 1024, 1024]⟩
abbrev S_ : Shape := ⟨0, ![]⟩

class Facts : Prop where
  bcast_S_S16x2x1024x1024 : S_.BroadcastsInDim S16x2x1024x1024 (![] : Fin 0 → Fin S16x2x1024x1024.rank)
  reducesTo_S16x2x1024x1024_S_d0_1_2_3 : S16x2x1024x1024.ReducesTo [0, 1, 2, 3] S_
  h_S_ : 0 < S_.numel

variable [Facts]

def fn {F : FTy → Type} [FloatOps F] (main_arg0 : FVec F S16x2x1024x1024 .f32) (main_arg1 : IVec S16x1x1024x1024 32) : IVec S_ 1 :=
  let main_v0 : FVec F S16x2x1024x1024 .f32 := Host.absf main_arg0
  let main_cst : FVec F S_ .f32 := constant S_ .f32 0x7F800000#32
  let main_v1 : FVec F S16x2x1024x1024 .f32 := broadcastInDim S16x2x1024x1024 ![] bcast_S_S16x2x1024x1024 main_cst
  let main_v2 : IVec S16x2x1024x1024 1 := cmpf .olt main_v0 main_v1
  let main_c : IVec S_ 1 := constantI S_ 1 1#1
  let main_v3 : IVec S_ 1 := (fun x v => Host.reduce IntOp.andi x v reducesTo_S16x2x1024x1024_S_d0_1_2_3 h_S_) main_v2 main_c
  main_v3
-- ==== Kernel.lean ====
abbrev S16x2x1024x1024 : Shape := ⟨4, ![16, 2, 1024, 1024]⟩
abbrev S16x1x1024x1024 : Shape := ⟨4, ![16, 1, 1024, 1024]⟩
abbrev S2x8x4 : Shape := ⟨3, ![2, 8, 4]⟩
abbrev S8x2x64x1024 : Shape := ⟨4, ![8, 2, 64, 1024]⟩
abbrev S8x1x64x1024 : Shape := ⟨4, ![8, 1, 64, 1024]⟩
abbrev S1x8x4 : Shape := ⟨3, ![1, 8, 4]⟩
abbrev S8x4 : Shape := ⟨2, ![8, 4]⟩
abbrev S8x1x64 : Shape := ⟨3, ![8, 1, 64]⟩
abbrev S8x1x64x1 : Shape := ⟨4, ![8, 1, 64, 1]⟩
abbrev S8x1x1 : Shape := ⟨3, ![8, 1, 1]⟩
abbrev S8x1x1x1 : Shape := ⟨4, ![8, 1, 1, 1]⟩
abbrev S8x1 : Shape := ⟨2, ![8, 1]⟩
abbrev S16x4 : Shape := ⟨2, ![16, 4]⟩
abbrev S16x1 : Shape := ⟨2, ![16, 1]⟩
abbrev S16 : Shape := ⟨1, ![16]⟩
abbrev S_ : Shape := ⟨0, ![]⟩
abbrev S32 : Shape := ⟨1, ![32]⟩

abbrev nBuf : Space → Nat
  | .hbm => 27
  | .vmem => 7
  | .smem => 0
  | _ => 0

abbrev bufTy : (tb : Table) → Fin (tcTables nBuf tb) → BufTy
  | .hbm, ⟨0, _⟩ => ⟨S16x2x1024x1024, .f32⟩
  | .hbm, ⟨1, _⟩ => ⟨S16x1x1024x1024, .i32⟩
  | .hbm, ⟨2, _⟩ => ⟨S2x8x4, .f32⟩
  | .hbm, ⟨3, _⟩ => ⟨S16x4, .f32⟩
  | .hbm, ⟨4, _⟩ => ⟨S16x1, .f32⟩
  | .hbm, ⟨5, _⟩ => ⟨S16, .f32⟩
  | .hbm, ⟨6, _⟩ => ⟨S16x1, .f32⟩
  | .hbm, ⟨7, _⟩ => ⟨S16, .f32⟩
  | .hbm, ⟨8, _⟩ => ⟨S16x1, .f32⟩
  | .hbm, ⟨9, _⟩ => ⟨S16, .f32⟩
  | .hbm, ⟨10, _⟩ => ⟨S16x1, .f32⟩
  | .hbm, ⟨11, _⟩ => ⟨S16, .f32⟩
  | .hbm, ⟨12, _⟩ => ⟨S_, .f32⟩
  | .hbm, ⟨13, _⟩ => ⟨S16, .f32⟩
  | .hbm, ⟨14, _⟩ => ⟨S16, .f32⟩
  | .hbm, ⟨15, _⟩ => ⟨S16, .f32⟩
  | .hbm, ⟨16, _⟩ => ⟨S_, .f32⟩
  | .hbm, ⟨17, _⟩ => ⟨S16, .f32⟩
  | .hbm, ⟨18, _⟩ => ⟨S16, .f32⟩
  | .hbm, ⟨19, _⟩ => ⟨S16, .f32⟩
  | .hbm, ⟨20, _⟩ => ⟨S32, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .local _ .vmem, ⟨0, _⟩ => ⟨S8x2x64x1024, .f32⟩
  | .local _ .vmem, ⟨1, _⟩ => ⟨S8x2x64x1024, .f32⟩
  | .local _ .vmem, ⟨2, _⟩ => ⟨S8x1x64x1024, .i32⟩
  | .local _ .vmem, ⟨3, _⟩ => ⟨S8x1x64x1024, .i32⟩
  | .local _ .vmem, ⟨4, _⟩ => ⟨S1x8x4, .f32⟩
  | .local _ .vmem, ⟨5, _⟩ => ⟨S1x8x4, .f32⟩
  | .local _ .vmem, ⟨6, _⟩ => ⟨S8x4, .f32⟩
  | _, _ => ⟨S16x2x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst_0 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_cst_1 : Ref sig .tc := ⟨.hbm, 21, rfl⟩
abbrev main_v17 : Ref sig .tc := ⟨.hbm, 22, rfl⟩
abbrev main_cst_2 : Ref sig .tc := ⟨.hbm, 23, rfl⟩
abbrev main_v18 : Ref sig .tc := ⟨.hbm, 24, rfl⟩
abbrev main_cst_3 : Ref sig .tc := ⟨.hbm, 25, rfl⟩
abbrev main_v19 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 16], ![false, false]⟩

def k0_cond2 (i : grid0.Coords) : BitVec 1 :=
  let arg1 : BitVec 32 := BitVec.ofNat 32 (i 1).val
  let c15_i32 : BitVec 32 := 15#32
  let v59 : BitVec 1 := Scalar.cmpi .eq arg1 c15_i32
  let v60 : BitVec 32 := Scalar.extui v59
  let c0_i32_27 : BitVec 32 := 0#32
  let v61 : BitVec 1 := Scalar.cmpi .ne v60 c0_i32_27
  v61

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x2x64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x1x64x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x4 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S8x4_S8x4_0_0 : ∀ a, (![0, 0] : Fin 2 → Nat) a + S8x4.size a ≤ S8x4.size a
  h_S8x4 : 0 < S8x4.numel
  shapeCasts_S8x4_S8x4 : S8x4.ShapeCasts S8x4
  inb_S8x2x64x1024_S8x2x64x1024_0_0_0_0 : ∀ a, (![0, 0, 0, 0] : Fin 4 → Nat) a + S8x2x64x1024.size a ≤ S8x2x64x1024.size a
  h_S8x2x64x1024 : 0 < S8x2x64x1024.numel
  inb_S8x1x64x1024_S8x1x64x1024_0_0_0_0 : ∀ a, (![0, 0, 0, 0] : Fin 4 → Nat) a + S8x1x64x1024.size a ≤ S8x1x64x1024.size a
  h_S8x1x64x1024 : 0 < S8x1x64x1024.numel
  slices_S8x2x64x1024_o0_0_0_0_S8x1x64x1024 : S8x2x64x1024.Slices ![0, 0, 0, 0] S8x1x64x1024
  slices_S8x2x64x1024_o0_1_0_0_S8x1x64x1024 : S8x2x64x1024.Slices ![0, 1, 0, 0] S8x1x64x1024
  natLt_1_32 : 1 < 32
  reduces_S8x1x64x1024_S8x1x64 : S8x1x64x1024.Reduces [3] S8x1x64
  shapeCasts_S8x1x64_S8x1x64x1 : S8x1x64.ShapeCasts S8x1x64x1
  reduces_S8x1x64x1_S8x1x1 : S8x1x64x1.Reduces [2] S8x1x1
  shapeCasts_S8x1x1_S8x1x1x1 : S8x1x1.ShapeCasts S8x1x1x1
  shapeCasts_S8x1x1x1_S8x1 : S8x1x1x1.ShapeCasts S8x1
  concatenates_S8x1_S8x1_S8x1_S8x1_S8x4_d1 : Shape.Concatenates [S8x1, S8x1, S8x1, S8x1] S8x4 1
  inb_S1x8x4_S1x8x4_0_0_0 : ∀ a, (![0, 0, 0] : Fin 3 → Nat) a + S1x8x4.size a ≤ S1x8x4.size a
  h_S1x8x4 : 0 < S1x8x4.numel
  shapeCasts_S1x8x4_S8x4 : S1x8x4.ShapeCasts S8x4
  shapeCasts_S8x4_S1x8x4 : S8x4.ShapeCasts S1x8x4
  shapeCasts_S2x8x4_S16x4 : S2x8x4.ShapeCasts S16x4
  slices_S16x4_S16x1_0_0 : S16x4.Slices ![0, 0] S16x1
  shapeCasts_S16x1_S16 : S16x1.ShapeCasts S16
  slices_S16x4_S16x1_0_1 : S16x4.Slices ![0, 1] S16x1
  slices_S16x4_S16x1_0_2 : S16x4.Slices ![0, 2] S16x1
  slices_S16x4_S16x1_0_3 : S16x4.Slices ![0, 3] S16x1
  bcast_S_S16 : S_.BroadcastsInDim S16 (![] : Fin 0 → Fin S16.rank)
  concatenates_S16_S16_S32_d0 : Shape.Concatenates [S16, S16] S32 0
  reducesTo_S32_S_d0 : S32.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x2x64x1024.size a ≤ S16x2x1024x1024.size a
  hwx0_0 : ∀ i : grid0.Coords, EltTy.bits .f32 = 32 ∨ (Rect.block (s := S16x2x1024x1024) S8x2x64x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x1x64x1024.size a ≤ S16x1x1024x1024.size a
  hwx0_1 : ∀ i : grid0.Coords, EltTy.bits .i32 = 32 ∨ (Rect.block (s := S16x1x1024x1024) S8x1x64x1024.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x4.size a ≤ S2x8x4.size a
  hwx0_2 : ∀ i : grid0.Coords, EltTy.bits .f32 = 32 ∨ (Rect.block (s := S2x8x4) S1x8x4.size (cc0_transform_2 i) (hinb0_2 i)).WholeWords (EltTy.packing .f32)

variable [Facts₀]

abbrev win0_0 : Pipeline.Window sig grid0 :=
  Pipeline.Window.ofSpec (Memref.whole main_arg0) S8x2x64x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x1x64x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x8x4.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S16x2x1024x1024 : Shape := ⟨4, ![16, 2, 1024, 1024]⟩
abbrev S16x1x1024x1024 : Shape := ⟨4, ![16, 1, 1024, 1024]⟩
abbrev S_ : Shape := ⟨0, ![]⟩
abbrev S16x1024x1024 : Shape := ⟨3, ![16, 1024, 1024]⟩
abbrev S16x2 : Shape := ⟨2, ![16, 2]⟩

abbrev nBuf : Space → Nat
  | .hbm => 44
  | .vmem => 0
  | .smem => 0
  | _ => 0

abbrev bufTy : (tb : Table) → Fin (tcTables nBuf tb) → BufTy
  | .hbm, ⟨0, _⟩ => ⟨S16x2x1024x1024, .f32⟩
  | .hbm, ⟨1, _⟩ => ⟨S16x1x1024x1024, .i32⟩
  | .hbm, ⟨2, _⟩ => ⟨S_, .i32⟩
  | .hbm, ⟨3, _⟩ => ⟨S16x1x1024x1024, .i32⟩
  | .hbm, ⟨4, _⟩ => ⟨S16x1x1024x1024, .i1⟩
  | .hbm, ⟨5, _⟩ => ⟨S16x1x1024x1024, .i1⟩
  | .hbm, ⟨6, _⟩ => ⟨S16x1x1024x1024, .i1⟩
  | .hbm, ⟨7, _⟩ => ⟨S16x2x1024x1024, .i1⟩
  | .hbm, ⟨8, _⟩ => ⟨S16x2x1024x1024, .f32⟩
  | .hbm, ⟨9, _⟩ => ⟨S_, .f32⟩
  | .hbm, ⟨10, _⟩ => ⟨S16x1024x1024, .f32⟩
  | .hbm, ⟨11, _⟩ => ⟨S_, .f32⟩
  | .hbm, ⟨12, _⟩ => ⟨S16x1024x1024, .f32⟩
  | .hbm, ⟨13, _⟩ => ⟨S16x1024x1024, .f32⟩
  | .hbm, ⟨14, _⟩ => ⟨S16x1x1024x1024, .f32⟩
  | .hbm, ⟨15, _⟩ => ⟨S16x2x1024x1024, .f32⟩
  | .hbm, ⟨16, _⟩ => ⟨S16x2x1024x1024, .f32⟩
  | .hbm, ⟨17, _⟩ => ⟨S16x2x1024x1024, .f32⟩
  | .hbm, ⟨18, _⟩ => ⟨S_, .f32⟩
  | .hbm, ⟨19, _⟩ => ⟨S16x1024x1024, .f32⟩
  | .hbm, ⟨20, _⟩ => ⟨S16x1x1024x1024, .f32⟩
  | .hbm, ⟨21, _⟩ => ⟨S16x2x1024x1024, .f32⟩
  | .hbm, ⟨22, _⟩ => ⟨S16x2x1024x1024, .f32⟩
  | .hbm, ⟨23, _⟩ => ⟨S16x2x1024x1024, .f32⟩
  | .hbm, ⟨24, _⟩ => ⟨S_, .f32⟩
  | .hbm, ⟨25, _⟩ => ⟨S16x2, .f32⟩
  | .hbm, ⟨26, _⟩ => ⟨S_, .f32⟩
  | .hbm, ⟨27, _⟩ => ⟨S16x2, .f32⟩
  | .hbm, ⟨28, _⟩ => ⟨S16x2, .f32⟩
  | .hbm, ⟨29, _⟩ => ⟨S16x2x1024x1024, .f32⟩
  | .hbm, ⟨30, _⟩ => ⟨S16x2x1024x1024, .f32⟩
  | .hbm, ⟨31, _⟩ => ⟨S16x2x1024x1024, .f32⟩
  | .hbm, ⟨32, _⟩ => ⟨S_, .f32⟩
  | .hbm, ⟨33, _⟩ => ⟨S16x2, .f32⟩
  | .hbm, ⟨34, _⟩ => ⟨S_, .f32⟩
  | .hbm, ⟨35, _⟩ => ⟨S16x2, .f32⟩
  | .hbm, ⟨36, _⟩ => ⟨S16x2, .f32⟩
  | .hbm, ⟨37, _⟩ => ⟨S16x2, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | _, _ => ⟨S16x2x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_4 : Ref sig .tc := ⟨.hbm, 32, rfl⟩
abbrev main_v24 : Ref sig .tc := ⟨.hbm, 33, rfl⟩
abbrev main_cst_5 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_6 : Ref sig .tc := ⟨.hbm, 38, rfl⟩
abbrev main_v28 : Ref sig .tc := ⟨.hbm, 39, rfl⟩
abbrev main_cst_7 : Ref sig .tc := ⟨.hbm, 40, rfl⟩
abbrev main_v29 : Ref sig .tc := ⟨.hbm, 41, rfl⟩
abbrev main_cst_8 : Ref sig .tc := ⟨.hbm, 42, rfl⟩
abbrev main_v30 : Ref sig .tc := ⟨.hbm, 43, rfl⟩

abbrev nD : Nat := 1
abbrev τ : Topo := Topo.v7x

variable {F : FTy → Type} [FloatOps F]

class Facts₀ : Prop where
  bcast_S_S16x1x1024x1024 : S_.BroadcastsInDim S16x1x1024x1024 (![] : Fin 0 → Fin S16x1x1024x1024.rank)
  concatenates_S16x1x1024x1024_S16x1x1024x1024_S16x2x1024x1024_d1 : Shape.Concatenates [S16x1x1024x1024, S16x1x1024x1024] S16x2x1024x1024 1
  reducesTo_S16x2x1024x1024_S16x1024x1024_d1 : S16x2x1024x1024.ReducesTo [1] S16x1024x1024
  h_S_ : 0 < S_.numel
  bcast_S_S16x1024x1024 : S_.BroadcastsInDim S16x1024x1024 (![] : Fin 0 → Fin S16x1024x1024.rank)
  bcast_S16x1024x1024_S16x1x1024x1024_0_2_3 : S16x1024x1024.BroadcastsInDim S16x1x1024x1024 (![0, 2, 3] : Fin 3 → Fin S16x1x1024x1024.rank)
  bcast_S16x1x1024x1024_S16x2x1024x1024_0_1_2_3 : S16x1x1024x1024.BroadcastsInDim S16x2x1024x1024 (![0, 1, 2, 3] : Fin 4 → Fin S16x2x1024x1024.rank)
  reducesTo_S16x2x1024x1024_S16x2_d2_3 : S16x2x1024x1024.ReducesTo [2, 3] S16x2
  bcast_S_S16x2 : S_.BroadcastsInDim S16x2 (![] : Fin 0 → Fin S16x2.rank)
  reducesTo_S16x2_S_d0_1 : S16x2.ReducesTo [0, 1] S_

variable [Facts₀]

class Facts : Prop extends Facts₀ where

variable [Facts]
-- ==== Proof.KernelPieces.lean ====
/-
  What one grid point of the block-summing kernel leaves behind, for any float values.

  The kernel sweeps each batch group over sixteen row blocks.  At every point it adds the block's four column sums to
  a small scratch array that it carries from point to point; at the first point of a sweep it zeroes the scratch first,
  and at the last point it also copies the updated scratch into its output block.  The three cases are read off the
  body's stores: the scratch after a point is `step` of the point's two input blocks and of what the scratch held
  before (the zero block at the first point), and the output block of a last point is that scratch re-laid as one slab.
-/
import proofs.«106386_j41274635715148_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.KValue

open Cert.KernelIdeal Cert.KernelIdeal.Gen

variable {F : FTy → Type} [FloatOps F]

/-- The zero offsets of a whole-buffer access, as a constant function (ranks 2, 3, 4). -/
theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The four per-pixel maps summed over the block and added to an accumulator: the value one grid point stores into the carried scratch. -/
abbrev step (x0 : Vec F S8x2x64x1024 .f32) (x1 : Vec F S8x1x64x1024 .i32) (acc : Vec F S8x4 .f32) : Vec F S8x4 .f32 :=
  k0_pay1 (k0_pay8 x0 x1) (k0_pay9 x0 x1) (k0_pay10 x0 x1) (k0_pay11 x0 x1) acc

/-- At a point that is neither the first nor the last of its row-block sweep, the carried scratch ends at the
    block's four sums added to what the previous point left. -/
theorem sout_B (c : Dev nD) (i : grid0.Coords) (arg2 : Memref sig .tc .vmem S8x2x64x1024 .f32) (harg2 : arg2.IsWhole) (arg3 : Memref sig .tc .vmem S8x1x64x1024 .i32) (harg3 : arg3.IsWhole) (arg4 : Memref sig .tc .vmem S1x8x4 .f32) (harg4 : arg4.IsWhole) (arg5 : Memref sig .tc .vmem S8x4 .f32) (harg5 : arg5.IsWhole) (hc0 : ¬cond0_0 i) (hc1 : ¬cond0_1 i)
    (x0 : Vec F S8x2x64x1024 .f32) (x1 : Vec F S8x1x64x1024 .i32) (xs0 : Vec F S8x4 .f32) :
    sout0_B_0 c i arg2 harg2 arg3 harg3 arg4 harg4 arg5 harg5 hc0 hc1 x0 x1 xs0 = step x0 x1 xs0 := by
  unfold sout0_B_0
  rw [View.read_writes_eq_canon _ _ _ (scover0_B_0 c i arg2 harg2 arg3 harg3 arg4 harg4 arg5 harg5 hc0 hc1 x0 x1 xs0)]
  unfold kernelRun0_B
  dsimp only
  sl_unfold_words
  rw [View.canon_unit_zero hz2]
  simp only [View.readAt_eq_ld, harg2.read_unread, harg3.read_unread, harg4.read_unread, harg5.read_unread, View.ld_unit_zero (S := S8x4) hz2, View.ld_unit_zero (S := S1x8x4) hz3, View.ld_unit_zero (S := S8x2x64x1024) hz4, View.ld_unit_zero (S := S8x1x64x1024) hz4]

/-- At the last point of a sweep the scratch is updated in the same way. -/
theorem sout_C (c : Dev nD) (i : grid0.Coords) (arg2 : Memref sig .tc .vmem S8x2x64x1024 .f32) (harg2 : arg2.IsWhole) (arg3 : Memref sig .tc .vmem S8x1x64x1024 .i32) (harg3 : arg3.IsWhole) (arg4 : Memref sig .tc .vmem S1x8x4 .f32) (harg4 : arg4.IsWhole) (arg5 : Memref sig .tc .vmem S8x4 .f32) (harg5 : arg5.IsWhole) (hc0 : ¬cond0_0 i) (hc1 : cond0_1 i)
    (x0 : Vec F S8x2x64x1024 .f32) (x1 : Vec F S8x1x64x1024 .i32) (xs0 : Vec F S8x4 .f32) :
    sout0_C_0 c i arg2 harg2 arg3 harg3 arg4 harg4 arg5 harg5 hc0 hc1 x0 x1 xs0 = step x0 x1 xs0 := by
  unfold sout0_C_0
  rw [View.read_writes_eq_canon _ _ _ (scover0_C_0 c i arg2 harg2 arg3 harg3 arg4 harg4 arg5 harg5 hc0 hc1 x0 x1 xs0)]
  unfold kernelRun0_C
  dsimp only
  sl_unfold_words
  rw [View.canon_unit_zero hz2]
  simp only [View.readAt_eq_ld, harg2.read_unread, harg3.read_unread, harg4.read_unread, harg5.read_unread, View.ld_unit_zero (S := S8x4) hz2, View.ld_unit_zero (S := S1x8x4) hz3, View.ld_unit_zero (S := S8x2x64x1024) hz4, View.ld_unit_zero (S := S8x1x64x1024) hz4]

/-- At the last point of a sweep the output block is the updated scratch, re-laid as a [1, 8, 4] block. -/
theorem out_C (c : Dev nD) (i : grid0.Coords) (arg2 : Memref sig .tc .vmem S8x2x64x1024 .f32) (harg2 : arg2.IsWhole) (arg3 : Memref sig .tc .vmem S8x1x64x1024 .i32) (harg3 : arg3.IsWhole) (arg4 : Memref sig .tc .vmem S1x8x4 .f32) (harg4 : arg4.IsWhole) (arg5 : Memref sig .tc .vmem S8x4 .f32) (harg5 : arg5.IsWhole) (hc0 : ¬cond0_0 i) (hc1 : cond0_1 i)
    (x0 : Vec F S8x2x64x1024 .f32) (x1 : Vec F S8x1x64x1024 .i32) (xs0 : Vec F S8x4 .f32) :
    out0_C_2 c i arg2 harg2 arg3 harg3 arg4 harg4 arg5 harg5 hc0 hc1 x0 x1 xs0 = k0_pay2 (step x0 x1 xs0) := by
  unfold out0_C_2
  rw [View.read_writes_eq_canon _ _ _ (cover0_C_2 c i arg2 harg2 arg3 harg3 arg4 harg4 arg5 harg5 hc0 hc1 x0 x1 xs0)]
  unfold kernelRun0_C
  dsimp only
  sl_unfold_words
  rw [View.canon_unit_zero hz3, View.readCov_unit_zero (S := S8x4) _ hz2]
  simp only [View.readAt_eq_ld, harg2.read_unread, harg3.read_unread, harg4.read_unread, harg5.read_unread, View.ld_unit_zero (S := S8x4) hz2, View.ld_unit_zero (S := S1x8x4) hz3, View.ld_unit_zero (S := S8x2x64x1024) hz4, View.ld_unit_zero (S := S8x1x64x1024) hz4]

/-- At the first point of a sweep the scratch is first zeroed, so it ends at the block's four sums added to zero. -/
theorem sout_A (c : Dev nD) (i : grid0.Coords) (arg2 : Memref sig .tc .vmem S8x2x64x1024 .f32) (harg2 : arg2.IsWhole) (arg3 : Memref sig .tc .vmem S8x1x64x1024 .i32) (harg3 : arg3.IsWhole) (arg4 : Memref sig .tc .vmem S1x8x4 .f32) (harg4 : arg4.IsWhole) (arg5 : Memref sig .tc .vmem S8x4 .f32) (harg5 : arg5.IsWhole) (hc0 : cond0_0 i) (hc1 : ¬cond0_1 i)
    (x0 : Vec F S8x2x64x1024 .f32) (x1 : Vec F S8x1x64x1024 .i32) :
    sout0_A_0 c i arg2 harg2 arg3 harg3 arg4 harg4 arg5 harg5 hc0 hc1 x0 x1 = step x0 x1 (k0_pay3 (F := F)) := by
  unfold sout0_A_0
  rw [View.read_writes_eq_canon _ _ _ (scover0_A_0 c i arg2 harg2 arg3 harg3 arg4 harg4 arg5 harg5 hc0 hc1 x0 x1)]
  unfold kernelRun0_A
  dsimp only
  sl_unfold_words
  rw [View.canon_cons_unit_zero (S := S8x4) hz2, View.readCov_unit_zero (S := S8x4) _ hz2]
  simp only [View.readAt_eq_ld, harg2.read_unread, harg3.read_unread, harg4.read_unread, harg5.read_unread, View.ld_unit_zero (S := S8x4) hz2, View.ld_unit_zero (S := S1x8x4) hz3, View.ld_unit_zero (S := S8x2x64x1024) hz4, View.ld_unit_zero (S := S8x1x64x1024) hz4]

variable (m : (ℓ : Loc nD τ sig) → Buf (Elt F) ℓ)

/-- The carried scratch after the first point of a sweep: the first block's sums over the zero block. -/
theorem scratch_first (c : Dev nD) (t : Fin cfg0.N) (h0 : t.val % 16 = 0) :
    (outsAt0 m c t.val t.isLt).2 = step (iblk m c 0 t) (iblk m c 1 t) (k0_pay3 (F := F)) := by
  have h1 : ¬t.val % 16 = 15 := by omega
  rw [outsAt0_A m c t h0 h1]
  exact sout_A c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t)

/-- The carried scratch after any later point of a sweep: this block's sums over what the point before left. -/
theorem scratch_next (c : Dev nD) (t : Fin cfg0.N) (h0 : ¬t.val % 16 = 0) :
    (outsAt0 m c t.val t.isLt).2
      = step (iblk m c 0 t) (iblk m c 1 t) (outsAt0 m c (t.val - 1) (Nat.lt_of_le_of_lt (Nat.sub_le _ _) t.isLt)).2 := by
  by_cases h1 : t.val % 16 = 15
  · rw [outsAt0_C m c t h0 h1]
    exact sout_C c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) _
  · rw [outsAt0_B m c t h0 h1]
    exact sout_B c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t) _

/-- At the last point of a sweep the output block holds the scratch as that point leaves it. -/
theorem out_last (c : Dev nD) (t : Fin cfg0.N) (h1 : t.val % 16 = 15) :
    (outsAt0 m c t.val t.isLt).1 = k0_pay2 (outsAt0 m c t.val t.isLt).2 := by
  have h0 : ¬t.val % 16 = 0 := by omega
  rw [outsAt0_C m c t h0 h1]
  exact (out_C c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) _).trans
    (congrArg k0_pay2 (sout_C c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) _).symm)

end Cert.KernelIdeal.KValue

end
-- ==== Proof.DiceSpec.lean ====
/-
  The Dice loss of a two-class segmentation, as two formulas over the reals.

  For a batch element `b`, a pixel `(h, w)` has two logits `u = a b 0 h w`, `v = a b 1 h w` and a label
  indicator `l ∈ {0, 1}`.  One program takes the probability of class 0 to be the sigmoid
  `1 / (1 + e^{-(u - v)})` and that of class 1 to be its complement, and sums its per-pixel terms in row
  blocks of 64 rows; the other takes the two softmax probabilities shifted by the larger logit and sums over
  all pixels at once.  Both then form, per batch element and class, the quotient of a numerator sum by a
  denominator sum plus a small constant, average the 32 quotients and subtract from one (`lossOf`).
-/
import Idealize.ShloMosaic.PureOps.Ideal
import Idealize.ShloMosaic.Lib.ValueIdx

noncomputable section

open scoped BigOperators

namespace Cert.Dice

open Idealize.ShloMosaic

/-- The probability of class 0 as a sigmoid of the difference of the two logits. -/
def sg (u v : ℝ) : ℝ := 1 / (1 + Real.exp (0 - (u - v)))

/-- The softmax probability of class 0, both logits shifted by the larger one. -/
def sm0 (u v : ℝ) : ℝ := Real.exp (u - max u v) / (Real.exp (u - max u v) + Real.exp (v - max u v))

/-- The softmax probability of class 1, both logits shifted by the larger one. -/
def sm1 (u v : ℝ) : ℝ := Real.exp (v - max u v) / (Real.exp (u - max u v) + Real.exp (v - max u v))

/-- A choice by the class channel: the first value for class 0, the second for class 1. -/
def pick {α : Type} (c : Fin 2) (x y : α) : α := if c = 0 then x else y

/-- Numerator term of class `c` at one pixel, sigmoid form: twice target times probability. -/
def ktn (c : Fin 2) (u v l : ℝ) : ℝ := pick c (2 * (1 - l) * sg u v) (2 * l * (1 - sg u v))

/-- Denominator term of class `c` at one pixel, sigmoid form: probability squared plus target. -/
def ktd (c : Fin 2) (u v l : ℝ) : ℝ := pick c (sg u v * sg u v + (1 - l)) ((1 - sg u v) * (1 - sg u v) + l)

/-- Numerator term of class `c` at one pixel, softmax form: target times probability (the factor two is applied to the sum). -/
def rtn (c : Fin 2) (u v l : ℝ) : ℝ := pick c ((1 - l) * sm0 u v) (l * sm1 u v)

/-- Denominator term of class `c` at one pixel, softmax form: probability squared plus target squared. -/
def rtd (c : Fin 2) (u v l : ℝ) : ℝ := pick c (sm0 u v * sm0 u v + (1 - l) * (1 - l)) (sm1 u v * sm1 u v + l * l)

/-- Row `64·hb + s` of the image: row `s` of row block `hb`. -/
def hrow (hb : Fin 16) (s : Fin 64) : Fin 1024 := ⟨64 * hb.val + s.val, by have := hb.isLt; have := s.isLt; omega⟩

/-- The sum of a per-pixel term over the image of batch element `b`, row block by row block. -/
def ksum (f : ℝ → ℝ → ℝ → ℝ) (a : Fin 16 → Fin 2 → Fin 1024 → Fin 1024 → ℝ) (l : Fin 16 → Fin 1024 → Fin 1024 → ℝ)
    (b : Fin 16) : ℝ :=
  ∑ hb : Fin 16, ∑ s : Fin 64, ∑ w : Fin 1024, f (a b 0 (hrow hb s) w) (a b 1 (hrow hb s) w) (l b (hrow hb s) w)

/-- The sum of a per-pixel term over the image of batch element `b`, all rows at once. -/
def rsum (f : ℝ → ℝ → ℝ → ℝ) (a : Fin 16 → Fin 2 → Fin 1024 → Fin 1024 → ℝ) (l : Fin 16 → Fin 1024 → Fin 1024 → ℝ)
    (b : Fin 16) : ℝ :=
  ∑ h : Fin 1024, ∑ w : Fin 1024, f (a b 0 h w) (a b 1 h w) (l b h w)

/-- The label indicator of a pixel as a real number: 0 where the label word is zero, 1 elsewhere. -/
def lab (x1 : (⟨4, ![16, 1, 1024, 1024]⟩ : Shape).Idx → BitVec 32) (b : Fin 16) (h w : Fin 1024) : ℝ :=
  if x1 (ValueIdx.ix4 b 0 h w) = 0#32 then 0 else 1

theorem lab_zero_or_one (x1 : (⟨4, ![16, 1, 1024, 1024]⟩ : Shape).Idx → BitVec 32) (b : Fin 16) (h w : Fin 1024) :
    lab x1 b h w = 0 ∨ lab x1 b h w = 1 := by
  unfold lab; split
  · exact Or.inl rfl
  · exact Or.inr rfl

/-- A numerator over a denominator plus the small constant, as the extended reals divide. -/
def ratio (n d : EReal) : EReal := Ideal.div n (d + Ideal.ofBits .f32 0x358637BD#32)

/-- One minus the mean of the 32 quotients, over the extended reals. -/
def lossOf (N D : Fin 16 → Fin 2 → EReal) : EReal :=
  Ideal.ofBits .f32 0x3F800000#32
    - Ideal.div (Ideal.ofBits .f32 0x00000000#32 + ∑ b : Fin 16, ∑ c : Fin 2, ratio (N b c) (D b c))
        (Ideal.ofBits .f32 0x42000000#32)

end Cert.Dice

end
-- ==== Proof.LibMatAssoc.lean ====
/-
  Reassociating a product of three matrices over the extended reals.

  Over the extended reals multiplication does not distribute over addition at the infinities, so the two
  groupings `(A · X) · W` and `A · (X · W)` of a triple product need not agree entry by entry.  When every entry
  is a real number both groupings are the same real: the sums and products are computed in `ℝ`, where the
  identity is distributivity and an exchange of the two finite sums.
-/
import Mathlib

namespace MatAssoc

open Finset

/-- The coercion `ℝ → EReal` of a finite sum of reals is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Over the reals: `∑ₖ (∑ᵢ aᵢ xᵢₖ) wₖ = ∑ᵢ aᵢ ∑ₖ xᵢₖ wₖ`. -/
theorem real_assoc {ι κ : Type*} [Fintype ι] [Fintype κ] (a : ι → ℝ) (x : ι → κ → ℝ) (w : κ → ℝ) :
    ∑ k, (∑ i, a i * x i k) * w k = ∑ i, a i * ∑ k, x i k * w k := by
  simp only [Finset.sum_mul, Finset.mul_sum]
  rw [Finset.sum_comm]
  exact Finset.sum_congr rfl fun i _ => Finset.sum_congr rfl fun k _ => mul_assoc _ _ _

/-- One row of `(A · X) · W` against the same row of `A · (X · W)` over the extended reals, every entry a real:
    `∑ₖ (∑ᵢ aᵢ xᵢₖ) wₖ = ∑ᵢ aᵢ ∑ₖ xᵢₖ wₖ`. -/
theorem ereal_assoc {ι κ : Type*} [Fintype ι] [Fintype κ] (a : ι → EReal) (x : ι → κ → EReal) (w : κ → EReal)
    (ha : ∀ i, a i ≠ ⊤ ∧ a i ≠ ⊥) (hx : ∀ i k, x i k ≠ ⊤ ∧ x i k ≠ ⊥) (hw : ∀ k, w k ≠ ⊤ ∧ w k ≠ ⊥) :
    ∑ k, (∑ i, a i * x i k) * w k = ∑ i, a i * ∑ k, x i k * w k := by
  lift a to ι → ℝ using ha
  lift w to κ → ℝ using hw
  obtain ⟨x', hx'⟩ : ∃ x' : ι → κ → ℝ, ∀ i k, x i k = (x' i k : EReal) :=
    ⟨fun i k => (x i k).toReal, fun i k => (EReal.coe_toReal (hx i k).1 (hx i k).2).symm⟩
  simp only [hx', ← EReal.coe_mul, ← coe_sum]
  exact congrArg _ (real_assoc a x' w)

end MatAssoc
-- ==== Proof.LibIdealLits.lean ====
import Idealize.ShloMosaic.PureOps.Ideal
import Idealize.ShloMosaic.PureOps.Ideal.Laws

/-!
# Three float literals at the ideal instance

The binary32 patterns of 1, of 16 and of minus infinity denote the extended reals 1, 16 and ⊥.
-/

namespace Cert.StepLaw

open Idealize.ShloMosaic

/-- The binary32 pattern of 1.0 denotes the real number 1. -/
theorem ofBits_one_f32 : Ideal.ofBits .f32 0x3F800000#32 = ((1 : ℝ) : EReal) := by
  simp [Ideal.ofBits, Ideal.ieee]
  norm_num
  rw [← EReal.coe_mul, ← EReal.coe_one]
  congr 1
  norm_num

/-- The binary32 pattern of 16.0 denotes the real number 16. -/
theorem ofBits_sixteen_f32 : Ideal.ofBits .f32 0x41800000#32 = ((16 : ℝ) : EReal) := by
  simp [Ideal.ofBits, Ideal.ieee]
  norm_num
  rw [← EReal.coe_mul]
  congr 1
  norm_num

/-- The binary32 pattern of minus infinity denotes ⊥. -/
theorem ofBits_neginf_f32 : Ideal.ofBits .f32 0xFF800000#32 = (⊥ : EReal) := by
  simp [Ideal.ofBits, Ideal.ieee]

end Cert.StepLaw
-- ==== Proof.KernelPay.lean ====
/-
  The arithmetic of one grid step of the Dice kernel, read at an index.

  A step loads a block of logits `x0 : [8, 2, 64, 1024]` and a block of label words `x1 : [8, 1, 64, 1024]`.  Per pixel
  it forms the sigmoid `p0 = 1 / (1 + e^{0 - (u - v)})` of the difference of the two logits, its complement
  `p1 = 1 - p0`, the label indicator `l` (0 for the zero word, 1 otherwise) and its complement, and from them the four
  per-pixel terms `2 (1 - l) p0`, `p0² + (1 - l)`, `2 l p1`, `p1² + l`.  Each of the four maps is summed over the 1024
  lanes and then over the 64 rows of every batch row; the four resulting columns are laid side by side into an `[8, 4]`
  block, which is added to the accumulator block.

  When every logit is a real number, every intermediate value is a real number, so each entry `(r, k)` of the stored
  block is the accumulator's entry plus the coercion of a double sum of reals: the sum over rows and lanes of the
  `k`-th per-pixel term of the specification (`ktn 0`, `ktd 0`, `ktn 1`, `ktd 1`).  The four theorems at the end say so,
  one per column.  The steps: each pointwise operation read at a pixel (`pay4_apply` … `num0_apply`); the two
  reductions with the reshapes around them read at a batch row as a double sum (`colsum_apply`); the side-by-side
  layout read at a column (`cat_apply`); and the coercion `ℝ → EReal` taken out of the finite sums (`colsum_coe`).
-/
import proofs.«106386_j41274635715148_2_alg».proof.Proof.Gen.KernelIdeal.Skeleton
import proofs.«106386_j41274635715148_2_alg».proof.Proof.DiceSpec
import proofs.«106386_j41274635715148_2_alg».proof.Proof.LibMatAssoc
import proofs.«106386_j41274635715148_2_alg».proof.Proof.LibIdealLits
import Idealize.ShloMosaic.Lib.ValueIdx
import Idealize.ShloMosaic.Lib.Affine
import Idealize.ShloMosaic.Lib.ValueLayout
import Idealize.ShloMosaic.Lib.Pipeline.Value
import Idealize.ShloMosaic.PureOps.Ideal.Laws

set_option synthInstance.maxSize 4096

noncomputable section

open scoped BigOperators

namespace Cert.KernelIdeal.Pay

open Idealize.ShloMosaic Idealize.ShloMosaic.ValueIdx Cert.KernelIdeal Cert.KernelIdeal.Gen Cert.Dice

/-- The binary32 pattern of 2.0 denotes the real number 2. -/
theorem ofBits_two_f32 : Ideal.ofBits .f32 0x40000000#32 = ((2 : ℝ) : EReal) := by
  simp [Ideal.ofBits, Ideal.ieee]
  norm_num
  rw [← EReal.coe_mul]
  congr 1
  norm_num

/-- The label indicator of one label word as a real: 0 for the zero word, 1 otherwise. -/
def labw (lw : BitVec 32) : ℝ := if lw = 0#32 then 0 else 1

/-- The sigmoid of the difference of the two logits of a pixel, as the kernel computes it. -/
theorem pay4_apply (x0 : Vec Ideal S8x2x64x1024 .f32) (ar : Fin 8 → Fin 2 → Fin 64 → Fin 1024 → ℝ)
    (hx : ∀ r c s w, x0 (ix4 r c s w) = ((ar r c s w : ℝ) : EReal)) (r : Fin 8) (s : Fin 64) (w : Fin 1024) :
    k0_pay4 (F := Ideal) x0 (ix4 r 0 s w) = ((sg (ar r 0 s w) (ar r 1 s w) : ℝ) : EReal) := by
  have h0 : extractStridedSlice S8x1x64x1024 ![0, 0, 0, 0] x0 slices_S8x2x64x1024_o0_0_0_0_S8x1x64x1024 (ix4 r 0 s w)
      = ((ar r 0 s w : ℝ) : EReal) :=
    (slice4_axis1_apply 0 x0 _ r (0 : Fin 1) s w (0 : Fin 2) rfl).trans (hx r 0 s w)
  have h1 : extractStridedSlice S8x1x64x1024 ![0, 1, 0, 0] x0 slices_S8x2x64x1024_o0_1_0_0_S8x1x64x1024 (ix4 r 0 s w)
      = ((ar r 1 s w : ℝ) : EReal) :=
    (slice4_axis1_apply 1 x0 _ r (0 : Fin 1) s w (1 : Fin 2) rfl).trans (hx r 1 s w)
  show Ideal.div (Ideal.ofBits .f32 0x3F800000#32)
      (Ideal.ofBits .f32 0x3F800000#32 + Ideal.exp (Ideal.ofBits .f32 0x00000000#32
        - (extractStridedSlice S8x1x64x1024 ![0, 0, 0, 0] x0 slices_S8x2x64x1024_o0_0_0_0_S8x1x64x1024 (ix4 r 0 s w)
          - extractStridedSlice S8x1x64x1024 ![0, 1, 0, 0] x0 slices_S8x2x64x1024_o0_1_0_0_S8x1x64x1024 (ix4 r 0 s w)))) = _
  rw [h0, h1, Cert.StepLaw.ofBits_one_f32, Ideal.ofBits_zero_f32]
  rw [← EReal.coe_sub, ← EReal.coe_zero, ← EReal.coe_sub, Ideal.exp_coe, ← EReal.coe_add]
  rw [Ideal.div_coe (by positivity), ← EReal.coe_mul]
  unfold sg
  congr 1
  ring

/-- The float label indicator the kernel forms from a label word: 0 for the zero word, 1 otherwise. -/
theorem pay6_apply (x1 : Vec Ideal S8x1x64x1024 .i32) (i : S8x1x64x1024.Idx) :
    k0_pay6 (F := Ideal) x1 i = ((labw (x1 i) : ℝ) : EReal) := by
  show ((((IntOp.cmpi .ne (x1 i) 0#32).setWidth 32).toInt : ℝ) : EReal) = _
  unfold labw
  by_cases h : x1 i = 0#32
  · rw [h, if_pos rfl]
    have : ((IntOp.cmpi .ne (0#32) 0#32).setWidth 32).toInt = 0 := by decide
    rw [this]; simp
  · rw [if_neg h]
    have hb : IntOp.cmpi .ne (x1 i) 0#32 = 1#1 := IntOp.cmpi_ne.mpr h
    rw [hb]
    have : ((1#1).setWidth 32).toInt = 1 := by decide
    rw [this]; simp

/-- The complement of the sigmoid: the probability of class 1. -/
theorem pay5_apply (x0 : Vec Ideal S8x2x64x1024 .f32) (ar : Fin 8 → Fin 2 → Fin 64 → Fin 1024 → ℝ)
    (hx : ∀ r c s w, x0 (ix4 r c s w) = ((ar r c s w : ℝ) : EReal)) (r : Fin 8) (s : Fin 64) (w : Fin 1024) :
    k0_pay5 (F := Ideal) x0 (ix4 r 0 s w) = ((1 - sg (ar r 0 s w) (ar r 1 s w) : ℝ) : EReal) := by
  show Ideal.ofBits .f32 0x3F800000#32 - k0_pay4 (F := Ideal) x0 (ix4 r 0 s w) = _
  rw [pay4_apply x0 ar hx, Cert.StepLaw.ofBits_one_f32, ← EReal.coe_sub]

/-- The complement of the label indicator: the target of class 0. -/
theorem pay7_apply (x1 : Vec Ideal S8x1x64x1024 .i32) (i : S8x1x64x1024.Idx) :
    k0_pay7 (F := Ideal) x1 i = ((1 - labw (x1 i) : ℝ) : EReal) := by
  show Ideal.ofBits .f32 0x3F800000#32 - k0_pay6 (F := Ideal) x1 i = _
  rw [pay6_apply, Cert.StepLaw.ofBits_one_f32, ← EReal.coe_sub]

/-- The class-0 denominator term of a pixel: probability squared plus target. -/
theorem pay8_apply (x0 : Vec Ideal S8x2x64x1024 .f32) (x1 : Vec Ideal S8x1x64x1024 .i32)
    (ar : Fin 8 → Fin 2 → Fin 64 → Fin 1024 → ℝ)
    (hx : ∀ r c s w, x0 (ix4 r c s w) = ((ar r c s w : ℝ) : EReal)) (r : Fin 8) (s : Fin 64) (w : Fin 1024) :
    k0_pay8 (F := Ideal) x0 x1 (ix4 r 0 s w)
      = ((ktd 0 (ar r 0 s w) (ar r 1 s w) (labw (x1 (ix4 r 0 s w))) : ℝ) : EReal) := by
  show k0_pay4 (F := Ideal) x0 (ix4 r 0 s w) * k0_pay4 (F := Ideal) x0 (ix4 r 0 s w)
      + k0_pay7 (F := Ideal) x1 (ix4 r 0 s w) = _
  rw [pay4_apply x0 ar hx, pay7_apply, ← EReal.coe_mul, ← EReal.coe_add]
  simp [ktd, pick]

/-- The class-1 numerator term of a pixel: twice target times probability. -/
theorem pay9_apply (x0 : Vec Ideal S8x2x64x1024 .f32) (x1 : Vec Ideal S8x1x64x1024 .i32)
    (ar : Fin 8 → Fin 2 → Fin 64 → Fin 1024 → ℝ)
    (hx : ∀ r c s w, x0 (ix4 r c s w) = ((ar r c s w : ℝ) : EReal)) (r : Fin 8) (s : Fin 64) (w : Fin 1024) :
    k0_pay9 (F := Ideal) x0 x1 (ix4 r 0 s w)
      = ((ktn 1 (ar r 0 s w) (ar r 1 s w) (labw (x1 (ix4 r 0 s w))) : ℝ) : EReal) := by
  show Ideal.ofBits .f32 0x40000000#32 * k0_pay6 (F := Ideal) x1 (ix4 r 0 s w)
      * k0_pay5 (F := Ideal) x0 (ix4 r 0 s w) = _
  rw [pay5_apply x0 ar hx, pay6_apply, ofBits_two_f32, ← EReal.coe_mul, ← EReal.coe_mul]
  simp [ktn, pick]

/-- The class-1 denominator term of a pixel: probability squared plus target. -/
theorem pay10_apply (x0 : Vec Ideal S8x2x64x1024 .f32) (x1 : Vec Ideal S8x1x64x1024 .i32)
    (ar : Fin 8 → Fin 2 → Fin 64 → Fin 1024 → ℝ)
    (hx : ∀ r c s w, x0 (ix4 r c s w) = ((ar r c s w : ℝ) : EReal)) (r : Fin 8) (s : Fin 64) (w : Fin 1024) :
    k0_pay10 (F := Ideal) x0 x1 (ix4 r 0 s w)
      = ((ktd 1 (ar r 0 s w) (ar r 1 s w) (labw (x1 (ix4 r 0 s w))) : ℝ) : EReal) := by
  show k0_pay5 (F := Ideal) x0 (ix4 r 0 s w) * k0_pay5 (F := Ideal) x0 (ix4 r 0 s w)
      + k0_pay6 (F := Ideal) x1 (ix4 r 0 s w) = _
  rw [pay5_apply x0 ar hx, pay6_apply, ← EReal.coe_mul, ← EReal.coe_add]
  simp [ktd, pick]

/-- The class-0 numerator map of the kernel, before its reductions. -/
def num0 (x0 : Vec Ideal S8x2x64x1024 .f32) (x1 : Vec Ideal S8x1x64x1024 .i32) : FVec Ideal S8x1x64x1024 .f32 :=
  mulf (mulf (broadcast S8x1x64x1024 (Scalar.ofBits (F := Ideal) .f32 0x40000000#32)) (k0_pay7 (F := Ideal) x1))
    (k0_pay4 (F := Ideal) x0)

/-- The class-0 numerator term of a pixel: twice target times probability. -/
theorem num0_apply (x0 : Vec Ideal S8x2x64x1024 .f32) (x1 : Vec Ideal S8x1x64x1024 .i32)
    (ar : Fin 8 → Fin 2 → Fin 64 → Fin 1024 → ℝ)
    (hx : ∀ r c s w, x0 (ix4 r c s w) = ((ar r c s w : ℝ) : EReal)) (r : Fin 8) (s : Fin 64) (w : Fin 1024) :
    num0 x0 x1 (ix4 r 0 s w)
      = ((ktn 0 (ar r 0 s w) (ar r 1 s w) (labw (x1 (ix4 r 0 s w))) : ℝ) : EReal) := by
  show Ideal.ofBits .f32 0x40000000#32 * k0_pay7 (F := Ideal) x1 (ix4 r 0 s w)
      * k0_pay4 (F := Ideal) x0 (ix4 r 0 s w) = _
  rw [pay4_apply x0 ar hx, pay7_apply, ofBits_two_f32, ← EReal.coe_mul, ← EReal.coe_mul]
  simp [ktn, pick]

/-- The sum of a map over the lanes and then over the rows of each batch row, as the kernel's two reductions and the
    shape casts between and after them form it. -/
def colsum (v : FVec Ideal S8x1x64x1024 .f32) : FVec Ideal S8x1 .f32 :=
  shapeCast S8x1 (shapeCast S8x1x1x1 (multiReduction .add [2] S8x1x1 (shapeCast S8x1x64x1
    (multiReduction .add [3] S8x1x64 v 0x00000000#32 reduces_S8x1x64x1024_S8x1x64 (.inl rfl) rfl)
    shapeCasts_S8x1x64_S8x1x64x1) 0x00000000#32 reduces_S8x1x64x1_S8x1x1 (.inl rfl) rfl) shapeCasts_S8x1x1_S8x1x1x1)
    shapeCasts_S8x1x1x1_S8x1

/-- Read at batch row `r`, the two reductions give the double sum over the 64 rows and the 1024 lanes. -/
theorem colsum_apply (v : FVec Ideal S8x1x64x1024 .f32) (r : Fin 8) :
    colsum v (ix2 r 0) = ∑ s : Fin 64, ∑ w : Fin 1024, v (ix4 r 0 s w) := by
  unfold colsum
  refine (shapeCast_apply _ _ (ix2 r (0 : Fin 1)) (ix4 r (0 : Fin 1) (0 : Fin 1) (0 : Fin 1)) (by
    rw [Shape.rowMajor_val_four, Shape.rowMajor_val_two]
    show ((r.val * 1 + 0) * 1 + 0) * 1 + 0 = r.val * 1 + 0
    omega)).trans ?_
  refine (shapeCast_apply _ _ (ix4 r (0 : Fin 1) (0 : Fin 1) (0 : Fin 1)) (ix3 r (0 : Fin 1) (0 : Fin 1)) (by
    rw [Shape.rowMajor_val_three, Shape.rowMajor_val_four]
    show (r.val * 1 + 0) * 1 + 0 = ((r.val * 1 + 0) * 1 + 0) * 1 + 0
    omega)).trans ?_
  refine (Ideal.multiReduction_add_single _ _ _ _ _ _).trans ?_
  show ∑ s : Fin 64, _ = _
  refine Finset.sum_congr rfl fun s _ => ?_
  have hl : reduces_S8x1x64x1_S8x1x1.lift (ix3 r (0 : Fin 1) (0 : Fin 1)) s = ix4 r (0 : Fin 1) s (0 : Fin 1) := by
    funext c; apply Fin.ext
    match c with
    | ⟨0, _⟩ => rfl
    | ⟨1, _⟩ => rfl
    | ⟨2, _⟩ => rfl
    | ⟨3, _⟩ => rfl
  rw [hl]
  refine (shapeCast_apply _ _ (ix4 r (0 : Fin 1) s (0 : Fin 1)) (ix3 r (0 : Fin 1) s) (by
    rw [Shape.rowMajor_val_three, Shape.rowMajor_val_four]
    show (r.val * 1 + 0) * 64 + s.val = ((r.val * 1 + 0) * 64 + s.val) * 1 + 0
    omega)).trans ?_
  refine (Ideal.multiReduction_add_single _ _ _ _ _ _).trans ?_
  show ∑ w : Fin 1024, _ = _
  refine Finset.sum_congr rfl fun w _ => ?_
  refine congrArg v ?_
  funext c; apply Fin.ext
  match c with
  | ⟨0, _⟩ => rfl
  | ⟨1, _⟩ => rfl
  | ⟨2, _⟩ => rfl
  | ⟨3, _⟩ => rfl

/-- The stored value as the accumulator plus the four column sums side by side. -/
theorem pay1_unfold (x0 : Vec Ideal S8x2x64x1024 .f32) (x1 : Vec Ideal S8x1x64x1024 .i32) (acc : Vec Ideal S8x4 .f32) :
    k0_pay1 (F := Ideal) (k0_pay8 x0 x1) (k0_pay9 x0 x1) (k0_pay10 x0 x1) (k0_pay11 x0 x1) acc
      = shapeCast S8x4 (addf (F := Ideal) acc (concatenate S8x4 1
          [⟨S8x1, colsum (num0 x0 x1)⟩, ⟨S8x1, colsum (k0_pay8 (F := Ideal) x0 x1)⟩,
           ⟨S8x1, colsum (k0_pay9 (F := Ideal) x0 x1)⟩, ⟨S8x1, colsum (k0_pay10 (F := Ideal) x0 x1)⟩]
          concatenates_S8x1_S8x1_S8x1_S8x1_S8x4_d1)) shapeCasts_S8x4_S8x4 := rfl

/-- Column `k` of the four columns laid side by side, at row `r`, is the `k`-th column at `(r, 0)`. -/
theorem cat_apply (c0 c1 c2 c3 : FVec Ideal S8x1 .f32) (r : Fin 8) :
    concatenate S8x4 1 [⟨S8x1, c0⟩, ⟨S8x1, c1⟩, ⟨S8x1, c2⟩, ⟨S8x1, c3⟩] concatenates_S8x1_S8x1_S8x1_S8x1_S8x4_d1 (ix2 r (0 : Fin 4)) = c0 (ix2 r 0)
    ∧ concatenate S8x4 1 [⟨S8x1, c0⟩, ⟨S8x1, c1⟩, ⟨S8x1, c2⟩, ⟨S8x1, c3⟩] concatenates_S8x1_S8x1_S8x1_S8x1_S8x4_d1 (ix2 r (1 : Fin 4)) = c1 (ix2 r 0)
    ∧ concatenate S8x4 1 [⟨S8x1, c0⟩, ⟨S8x1, c1⟩, ⟨S8x1, c2⟩, ⟨S8x1, c3⟩] concatenates_S8x1_S8x1_S8x1_S8x1_S8x4_d1 (ix2 r (2 : Fin 4)) = c2 (ix2 r 0)
    ∧ concatenate S8x4 1 [⟨S8x1, c0⟩, ⟨S8x1, c1⟩, ⟨S8x1, c2⟩, ⟨S8x1, c3⟩] concatenates_S8x1_S8x1_S8x1_S8x1_S8x4_d1 (ix2 r (3 : Fin 4)) = c3 (ix2 r 0) := by
  have hi : ∀ (k : Fin 4) (b : Fin S8x1.rank), b.cast (rfl : S8x1.rank = S8x4.rank) ≠ (1 : Fin 2) →
      ((ix2 r (0 : Fin 1) : S8x1.Idx) b).val = ((ix2 r k : S8x4.Idx) (b.cast rfl)).val := fun k b hb =>
    match b, hb with
    | ⟨0, _⟩, _ => rfl
    | ⟨1, _⟩, hb => absurd rfl hb
  refine ⟨?_, ?_, ?_, ?_⟩
  · exact concatenate_apply_piece (α := EReal) (t := S8x4) (1 : Fin 2) [⟨S8x1, c0⟩, ⟨S8x1, c1⟩, ⟨S8x1, c2⟩, ⟨S8x1, c3⟩]
      concatenates_S8x1_S8x1_S8x1_S8x1_S8x4_d1 (ix2 r (0 : Fin 4)) 0 (by show (0 : ℕ) < 4; omega) S8x1 c0 rfl rfl 0 rfl (ix2 r 0) (hi 0) rfl
  · exact concatenate_apply_piece (α := EReal) (t := S8x4) (1 : Fin 2) [⟨S8x1, c0⟩, ⟨S8x1, c1⟩, ⟨S8x1, c2⟩, ⟨S8x1, c3⟩]
      concatenates_S8x1_S8x1_S8x1_S8x1_S8x4_d1 (ix2 r (1 : Fin 4)) 1 (by show (1 : ℕ) < 4; omega) S8x1 c1 rfl rfl 1 rfl (ix2 r 0) (hi 1) rfl
  · exact concatenate_apply_piece (α := EReal) (t := S8x4) (1 : Fin 2) [⟨S8x1, c0⟩, ⟨S8x1, c1⟩, ⟨S8x1, c2⟩, ⟨S8x1, c3⟩]
      concatenates_S8x1_S8x1_S8x1_S8x1_S8x4_d1 (ix2 r (2 : Fin 4)) 2 (by show (2 : ℕ) < 4; omega) S8x1 c2 rfl rfl 2 rfl (ix2 r 0) (hi 2) rfl
  · exact concatenate_apply_piece (α := EReal) (t := S8x4) (1 : Fin 2) [⟨S8x1, c0⟩, ⟨S8x1, c1⟩, ⟨S8x1, c2⟩, ⟨S8x1, c3⟩]
      concatenates_S8x1_S8x1_S8x1_S8x1_S8x4_d1 (ix2 r (3 : Fin 4)) 3 (by show (3 : ℕ) < 4; omega) S8x1 c3 rfl rfl 3 rfl (ix2 r 0) (hi 3) rfl

/-- A column sum of a map whose every element is a real number is the coerced double sum of those reals. -/
theorem colsum_coe (v : FVec Ideal S8x1x64x1024 .f32) (f : Fin 64 → Fin 1024 → ℝ) (r : Fin 8)
    (hv : ∀ s w, v (ix4 r 0 s w) = ((f s w : ℝ) : EReal)) :
    colsum v (ix2 r 0) = ((∑ s : Fin 64, ∑ w : Fin 1024, f s w : ℝ) : EReal) := by
  rw [colsum_apply, MatAssoc.coe_sum]
  refine Finset.sum_congr rfl fun s _ => ?_
  rw [MatAssoc.coe_sum]
  exact Finset.sum_congr rfl fun w _ => hv s w

/-- Column 0 of the stored block at row `r`: the accumulator plus the sum over the 64 rows and 1024 lanes of the class-0 numerator terms. -/
theorem pay1_col0 (x0 : Vec Ideal S8x2x64x1024 .f32) (x1 : Vec Ideal S8x1x64x1024 .i32) (acc : Vec Ideal S8x4 .f32)
    (ar : Fin 8 → Fin 2 → Fin 64 → Fin 1024 → ℝ) (hx : ∀ r c s w, x0 (ix4 r c s w) = ((ar r c s w : ℝ) : EReal)) (r : Fin 8) :
    k0_pay1 (F := Ideal) (k0_pay8 x0 x1) (k0_pay9 x0 x1) (k0_pay10 x0 x1) (k0_pay11 x0 x1) acc (ix2 r 0)
      = acc (ix2 r 0) + ((∑ s : Fin 64, ∑ w : Fin 1024, ktn 0 (ar r 0 s w) (ar r 1 s w) (labw (x1 (ix4 r 0 s w))) : ℝ) : EReal) := by
  rw [pay1_unfold, shapeCast_self]
  refine congrArg (acc (ix2 r 0) + ·) ?_
  refine ((cat_apply _ _ _ _ r).1).trans ?_
  exact colsum_coe _ _ r fun s w => num0_apply x0 x1 ar hx r s w

/-- Column 1 of the stored block at row `r`: the accumulator plus the sum over the 64 rows and 1024 lanes of the class-0 denominator terms. -/
theorem pay1_col1 (x0 : Vec Ideal S8x2x64x1024 .f32) (x1 : Vec Ideal S8x1x64x1024 .i32) (acc : Vec Ideal S8x4 .f32)
    (ar : Fin 8 → Fin 2 → Fin 64 → Fin 1024 → ℝ) (hx : ∀ r c s w, x0 (ix4 r c s w) = ((ar r c s w : ℝ) : EReal)) (r : Fin 8) :
    k0_pay1 (F := Ideal) (k0_pay8 x0 x1) (k0_pay9 x0 x1) (k0_pay10 x0 x1) (k0_pay11 x0 x1) acc (ix2 r 1)
      = acc (ix2 r 1) + ((∑ s : Fin 64, ∑ w : Fin 1024, ktd 0 (ar r 0 s w) (ar r 1 s w) (labw (x1 (ix4 r 0 s w))) : ℝ) : EReal) := by
  rw [pay1_unfold, shapeCast_self]
  refine congrArg (acc (ix2 r 1) + ·) ?_
  refine ((cat_apply _ _ _ _ r).2.1).trans ?_
  exact colsum_coe _ _ r fun s w => pay8_apply x0 x1 ar hx r s w

/-- Column 2 of the stored block at row `r`: the accumulator plus the sum over the 64 rows and 1024 lanes of the class-1 numerator terms. -/
theorem pay1_col2 (x0 : Vec Ideal S8x2x64x1024 .f32) (x1 : Vec Ideal S8x1x64x1024 .i32) (acc : Vec Ideal S8x4 .f32)
    (ar : Fin 8 → Fin 2 → Fin 64 → Fin 1024 → ℝ) (hx : ∀ r c s w, x0 (ix4 r c s w) = ((ar r c s w : ℝ) : EReal)) (r : Fin 8) :
    k0_pay1 (F := Ideal) (k0_pay8 x0 x1) (k0_pay9 x0 x1) (k0_pay10 x0 x1) (k0_pay11 x0 x1) acc (ix2 r 2)
      = acc (ix2 r 2) + ((∑ s : Fin 64, ∑ w : Fin 1024, ktn 1 (ar r 0 s w) (ar r 1 s w) (labw (x1 (ix4 r 0 s w))) : ℝ) : EReal) := by
  rw [pay1_unfold, shapeCast_self]
  refine congrArg (acc (ix2 r 2) + ·) ?_
  refine ((cat_apply _ _ _ _ r).2.2.1).trans ?_
  exact colsum_coe _ _ r fun s w => pay9_apply x0 x1 ar hx r s w

/-- Column 3 of the stored block at row `r`: the accumulator plus the sum over the 64 rows and 1024 lanes of the class-1 denominator terms. -/
theorem pay1_col3 (x0 : Vec Ideal S8x2x64x1024 .f32) (x1 : Vec Ideal S8x1x64x1024 .i32) (acc : Vec Ideal S8x4 .f32)
    (ar : Fin 8 → Fin 2 → Fin 64 → Fin 1024 → ℝ) (hx : ∀ r c s w, x0 (ix4 r c s w) = ((ar r c s w : ℝ) : EReal)) (r : Fin 8) :
    k0_pay1 (F := Ideal) (k0_pay8 x0 x1) (k0_pay9 x0 x1) (k0_pay10 x0 x1) (k0_pay11 x0 x1) acc (ix2 r 3)
      = acc (ix2 r 3) + ((∑ s : Fin 64, ∑ w : Fin 1024, ktd 1 (ar r 0 s w) (ar r 1 s w) (labw (x1 (ix4 r 0 s w))) : ℝ) : EReal) := by
  rw [pay1_unfold, shapeCast_self]
  refine congrArg (acc (ix2 r 3) + ·) ?_
  refine ((cat_apply _ _ _ _ r).2.2.2).trans ?_
  exact colsum_coe _ _ r fun s w => pay10_apply x0 x1 ar hx r s w

end Cert.KernelIdeal.Pay

end
-- ==== Proof.KernelValue.lean ====
/-
  The carried scratch of the block-summing kernel as partial sums over the reals.

  The grid point of batch group `g` and row block `h` is number 16·g + h.  Its logits block is rows 64·h … 64·h + 63
  of batch elements 8·g … 8·g + 7, and its labels block the same rows and elements.  For real logits one point's update
  adds to entry (r, k) of the scratch the sum, over the block's rows and columns, of column `k`'s per-pixel term of
  batch element 8·g + r.  By induction along a sweep the scratch after row block `h` holds the sum of the row-block
  sums 0 … h: the zero block plus the first sum at the first point, the previous partial sum plus the next one after.
-/
import proofs.«106386_j41274635715148_2_alg».proof.Proof.KernelPieces
import proofs.«106386_j41274635715148_2_alg».proof.Proof.DiceSpec
import proofs.«106386_j41274635715148_2_alg».proof.Proof.KernelPay
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)
open scoped BigOperators

namespace Cert.KernelIdeal.KValue

open Cert.KernelIdeal Cert.KernelIdeal.Gen Cert.KernelIdeal.Pay Cert.Dice

variable (m : (ℓ : Loc nD τ sig) → Buf (Elt Ideal) ℓ)

/-- The grid point of batch group `g` and row block `h`: the groups are swept one after the other. -/
def pt (g : Fin 2) (h : Fin 16) : Fin cfg0.N := ⟨16 * g.val + h.val, by rw [show cfg0.N = 32 from N_0]; have := g.isLt; have := h.isLt; omega⟩

/-- Batch element `8·g + r`: row `r` of group `g`. -/
def bidx (g : Fin 2) (r : Fin 8) : Fin 16 := ⟨8 * g.val + r.val, by have := g.isLt; have := r.isLt; omega⟩

/-- Where the logits window sits at a grid point: the group on the batch axis, the row block on the row axis. -/
theorem idx_facts0 : ∀ t : Fin cfg0.N, win0_0.index t 0 = t.val / 16 ∧ win0_0.index t 1 = 0 ∧ win0_0.index t 2 = t.val % 16 ∧ win0_0.index t 3 = 0 :=
  (by decide +kernel : ∀ t : Fin grid0.N, win0_0.index t 0 = t.val / 16 ∧ win0_0.index t 1 = 0 ∧ win0_0.index t 2 = t.val % 16 ∧ win0_0.index t 3 = 0)

/-- The labels window sits at the same place. -/
theorem idx_facts1 : ∀ t : Fin cfg0.N, win0_1.index t 0 = t.val / 16 ∧ win0_1.index t 1 = 0 ∧ win0_1.index t 2 = t.val % 16 ∧ win0_1.index t 3 = 0 :=
  (by decide +kernel : ∀ t : Fin grid0.N, win0_1.index t 0 = t.val / 16 ∧ win0_1.index t 1 = 0 ∧ win0_1.index t 2 = t.val % 16 ∧ win0_1.index t 3 = 0)

/-- The output window's block is the group's slab. -/
theorem idx_facts2 : ∀ t : Fin cfg0.N, win0_2.index t 0 = t.val / 16 ∧ win0_2.index t 1 = 0 ∧ win0_2.index t 2 = 0 :=
  (by decide +kernel : ∀ t : Fin grid0.N, win0_2.index t 0 = t.val / 16 ∧ win0_2.index t 1 = 0 ∧ win0_2.index t 2 = 0)

/-- The logits block at the point of group `g` and row block `h` reads the array at batch element `8g + r` and row `64h + s`. -/
theorem iblk0_apply (c : Dev nD) (g : Fin 2) (h : Fin 16) (r : Fin 8) (ch : Fin 2) (s : Fin 64) (w : Fin 1024) :
    (iblk m c 0 (pt g h) : Vec Ideal S8x2x64x1024 .f32) (ix4 r ch s w)
      = m ((c : Thread nD τ).loc main_arg0) (ix4 (bidx g r) ch (hrow h s) w) := by
  obtain ⟨h0, h1, h2, h3⟩ := idx_facts0 (pt g h)
  have hg : (pt g h).val / 16 = g.val := by show (16 * g.val + h.val) / 16 = g.val; have := h.isLt; omega
  have hh : (pt g h).val % 16 = h.val := by show (16 * g.val + h.val) % 16 = h.val; have := h.isLt; omega
  unfold iblk
  rw [View.read_apply]
  show V m c main_arg0 _ = m (c.tc.loc main_arg0) _
  unfold V
  congr 1
  funext a
  apply Fin.ext
  match a with
  | ⟨0, _⟩ => show win0_0.index (pt g h) 0 * 8 + 1 * r.val = 8 * g.val + r.val; rw [h0, hg]; omega
  | ⟨1, _⟩ => show win0_0.index (pt g h) 1 * 2 + 1 * ch.val = ch.val; rw [h1]; omega
  | ⟨2, _⟩ => show win0_0.index (pt g h) 2 * 64 + 1 * s.val = 64 * h.val + s.val; rw [h2, hh]; omega
  | ⟨3, _⟩ => show win0_0.index (pt g h) 3 * 1024 + 1 * w.val = w.val; rw [h3]; omega

/-- The labels block at that point reads the labels at the same batch element and row. -/
theorem iblk1_apply (c : Dev nD) (g : Fin 2) (h : Fin 16) (r : Fin 8) (s : Fin 64) (w : Fin 1024) :
    (iblk m c 1 (pt g h) : Vec Ideal S8x1x64x1024 .i32) (ix4 r 0 s w)
      = m ((c : Thread nD τ).loc main_arg1) (ix4 (bidx g r) 0 (hrow h s) w) := by
  obtain ⟨h0, h1, h2, h3⟩ := idx_facts1 (pt g h)
  have hg : (pt g h).val / 16 = g.val := by show (16 * g.val + h.val) / 16 = g.val; have := h.isLt; omega
  have hh : (pt g h).val % 16 = h.val := by show (16 * g.val + h.val) % 16 = h.val; have := h.isLt; omega
  unfold iblk
  rw [View.read_apply]
  show V m c main_arg1 _ = m (c.tc.loc main_arg1) _
  unfold V
  congr 1
  funext a
  apply Fin.ext
  match a with
  | ⟨0, _⟩ => show win0_1.index (pt g h) 0 * 8 + 1 * r.val = 8 * g.val + r.val; rw [h0, hg]; omega
  | ⟨1, _⟩ => show win0_1.index (pt g h) 1 * 1 + 1 * 0 = 0; rw [h1]
  | ⟨2, _⟩ => show win0_1.index (pt g h) 2 * 64 + 1 * s.val = 64 * h.val + s.val; rw [h2, hh]; omega
  | ⟨3, _⟩ => show win0_1.index (pt g h) 3 * 1024 + 1 * w.val = w.val; rw [h3]; omega

/-- The per-pixel term of column `k` of the statistics: numerator and denominator terms of class 0, then of class 1. -/
def col (k : Fin 4) : ℝ → ℝ → ℝ → ℝ :=
  match k with
  | ⟨0, _⟩ => ktn 0
  | ⟨1, _⟩ => ktd 0
  | ⟨2, _⟩ => ktn 1
  | ⟨3, _⟩ => ktd 1

/-- The sum of column `k`'s term over row block `h` of batch element `b`. -/
def blockSum (a : Fin 16 → Fin 2 → Fin 1024 → Fin 1024 → ℝ) (l : Fin 16 → Fin 1024 → Fin 1024 → ℝ) (k : Fin 4) (b : Fin 16) (h : Fin 16) : ℝ :=
  ∑ s : Fin 64, ∑ w : Fin 1024, col k (a b 0 (hrow h s) w) (a b 1 (hrow h s) w) (l b (hrow h s) w)

/-- The same, indexed by a natural number (zero past the last row block). -/
def blockSumN (a : Fin 16 → Fin 2 → Fin 1024 → Fin 1024 → ℝ) (l : Fin 16 → Fin 1024 → Fin 1024 → ℝ) (k : Fin 4) (b : Fin 16) (i : ℕ) : ℝ :=
  if hi : i < 16 then blockSum a l k b ⟨i, hi⟩ else 0

/-- The sum over the whole image is the sum of the sixteen row-block sums. -/
theorem ksum_eq_range (a : Fin 16 → Fin 2 → Fin 1024 → Fin 1024 → ℝ) (l : Fin 16 → Fin 1024 → Fin 1024 → ℝ) (k : Fin 4) (b : Fin 16) :
    ksum (col k) a l b = ∑ i ∈ Finset.range 16, blockSumN a l k b i := by
  rw [← Fin.sum_univ_eq_sum_range (fun i => blockSumN a l k b i) 16]
  unfold ksum
  refine Finset.sum_congr rfl fun hb _ => ?_
  unfold blockSumN
  rw [dif_pos hb.isLt]
  rfl

/-- One point's update of the scratch at an entry: the accumulator plus the block's sum of that column's term, for real logits. -/
theorem step_apply (x0 : Vec Ideal S8x2x64x1024 .f32) (x1 : Vec Ideal S8x1x64x1024 .i32) (acc : Vec Ideal S8x4 .f32)
    (ar : Fin 8 → Fin 2 → Fin 64 → Fin 1024 → ℝ) (hx : ∀ r c s w, x0 (ix4 r c s w) = ((ar r c s w : ℝ) : EReal)) (r : Fin 8) (k : Fin 4) :
    step x0 x1 acc (ix2 r k)
      = acc (ix2 r k) + ((∑ s : Fin 64, ∑ w : Fin 1024, col k (ar r 0 s w) (ar r 1 s w) (labw (x1 (ix4 r 0 s w))) : ℝ) : EReal) :=
  match k with
  | ⟨0, _⟩ => pay1_col0 x0 x1 acc ar hx r
  | ⟨1, _⟩ => pay1_col1 x0 x1 acc ar hx r
  | ⟨2, _⟩ => pay1_col2 x0 x1 acc ar hx r
  | ⟨3, _⟩ => pay1_col3 x0 x1 acc ar hx r

/-- The zero block the first point of a sweep stores is zero at every entry. -/
theorem pay3_apply (j : S8x4.Idx) : k0_pay3 (F := Ideal) j = 0 := by
  unfold k0_pay3
  simp only [shapeCast_self]
  show Ideal.ofBits .f32 0x00000000#32 = 0
  exact Ideal.ofBits_zero_f32

/-- Dependent bookkeeping: the accumulation at equal positions. -/
theorem outsAt0_congr (c : Dev nD) {n n' : ℕ} (e : n = n') (hn : n < cfg0.N) (hn' : n' < cfg0.N) :
    outsAt0 m c n hn = outsAt0 m c n' hn' := by subst e; rfl

/-- One point's update at an entry: the accumulator plus this row block's sum, for real logits. -/
theorem step_at (c : Dev nD) (a : Fin 16 → Fin 2 → Fin 1024 → Fin 1024 → ℝ)
    (ha : ∀ b ch hh w, m ((c : Thread nD τ).loc main_arg0) (ix4 b ch hh w) = ((a b ch hh w : ℝ) : EReal))
    (g : Fin 2) (h : Fin 16) (acc : Vec Ideal S8x4 .f32) (r : Fin 8) (k : Fin 4) :
    step (iblk m c 0 (pt g h)) (iblk m c 1 (pt g h)) acc (ix2 r k)
      = acc (ix2 r k) + ((blockSum a (lab (m ((c : Thread nD τ).loc main_arg1))) k (bidx g r) h : ℝ) : EReal) := by
  rw [step_apply (iblk m c 0 (pt g h)) (iblk m c 1 (pt g h)) acc (fun r ch s w => a (bidx g r) ch (hrow h s) w)
    (fun r ch s w => (iblk0_apply m c g h r ch s w).trans (ha _ _ _ _)) r k]
  unfold blockSum
  simp only [iblk1_apply]
  rfl

/-- THE ACCUMULATION: after the point of group `g` and row block `h` the carried scratch holds, at row `r` and column `k`,
    the sum of the row-block sums up to `h` of batch element `8g + r`. -/
theorem scratch_eq (c : Dev nD) (a : Fin 16 → Fin 2 → Fin 1024 → Fin 1024 → ℝ)
    (ha : ∀ b ch hh w, m ((c : Thread nD τ).loc main_arg0) (ix4 b ch hh w) = ((a b ch hh w : ℝ) : EReal))
    (g : Fin 2) : ∀ (h : ℕ) (hh : h < 16) (r : Fin 8) (k : Fin 4),
    (outsAt0 m c (pt g ⟨h, hh⟩).val (pt g ⟨h, hh⟩).isLt).2 (ix2 r k)
      = ((∑ i ∈ Finset.range (h + 1), blockSumN a (lab (m ((c : Thread nD τ).loc main_arg1))) k (bidx g r) i : ℝ) : EReal)
  | 0, hh, r, k => by
    have h0 : (pt g ⟨0, hh⟩).val % 16 = 0 := by show (16 * g.val + 0) % 16 = 0; omega
    rw [scratch_first m c (pt g ⟨0, hh⟩) h0, step_at m c a ha, pay3_apply, zero_add, Finset.sum_range_one]
    unfold blockSumN
    rw [dif_pos hh]
  | h + 1, hh, r, k => by
    have h0 : ¬(pt g ⟨h + 1, hh⟩).val % 16 = 0 := by show ¬(16 * g.val + (h + 1)) % 16 = 0; omega
    rw [scratch_next m c (pt g ⟨h + 1, hh⟩) h0, step_at m c a ha,
      outsAt0_congr m c (show (pt g ⟨h + 1, hh⟩).val - 1 = (pt g ⟨h, Nat.lt_of_succ_lt hh⟩).val from by
        show 16 * g.val + (h + 1) - 1 = 16 * g.val + h; omega) _ (pt g ⟨h, Nat.lt_of_succ_lt hh⟩).isLt,
      scratch_eq c a ha g h (Nat.lt_of_succ_lt hh) r k, Finset.sum_range_succ _ (h + 1), EReal.coe_add]
    congr 1
    unfold blockSumN
    rw [dif_pos hh]

end Cert.KernelIdeal.KValue

end
-- ==== Proof.KernelFinal.lean ====
/-
  From blocks to the array: what the statistics array [2, 8, 4] holds after the sweep.

  The grid has 2 batch groups of 16 row blocks; the point of group `g` and row block `h` is number 16·g + h.
  The four running sums of a group are carried from row block to row block, and only the last point of a
  group (row block 15) writes them out, as slab `g` of the array.  After row block 15 the running sum of column
  `k` for row `r` of the group is the sum of all sixteen row-block sums of batch element 8·g + r, that is the
  sum over the whole image.  The two slabs cover the array, so entry (g, r, k) of the array is that sum.
-/
import proofs.«106386_j41274635715148_2_alg».proof.Proof.KernelValue

set_option maxRecDepth 16384

noncomputable section

open Idealize.ShloMosaic Idealize.ShloMosaic.TcCoe Idealize.SL.Sem Idealize.ShloMosaic.ValueIdx
open Idealize.ShloMosaic.Pipeline (Dat)
open scoped BigOperators

namespace Cert.KernelIdeal.KValue

open Cert.KernelIdeal Cert.KernelIdeal.Gen Cert.KernelIdeal.Pay Cert.Dice

variable (m : (ℓ : Loc nD τ sig) → Buf (Elt Ideal) ℓ)

/-- The statistics array: entry (g, r, k) is column `k`'s sum over the whole image of batch element 8g + r. -/
def G (a : Fin 16 → Fin 2 → Fin 1024 → Fin 1024 → ℝ) (l : Fin 16 → Fin 1024 → Fin 1024 → ℝ) : FVec Ideal S2x8x4 .f32 :=
  fun y => ((ksum (col (y 2)) a l (bidx (y 0) (y 1)) : ℝ) : EReal)

/-- The [8, 4] sums re-laid as a [1, 8, 4] slab read, at (0, r, k), the sums at (r, k). -/
theorem slab_apply (v : Vec Ideal S8x4 .f32) (p : Fin 1) (r : Fin 8) (k : Fin 4) :
    k0_pay2 v (ix3 p r k) = v (ix2 r k) := by
  unfold k0_pay2
  refine (shapeCast_addUnit_apply ![8, 4] v _ (ix3 p r k)).trans (congrArg v ?_)
  funext a
  match a with
  | ⟨0, _⟩ => rfl
  | ⟨1, _⟩ => rfl

/-- What a writing point writes is its slab of the statistics array: a point writes only at row block 15 of its
    group `g`, its slab is slab `g`, and what it holds at (r, k) is the sum of the sixteen row-block sums of
    batch element 8g + r, the sum over the whole image. -/
theorem flushed_eq (c : Dev nD) (a : Fin 16 → Fin 2 → Fin 1024 → Fin 1024 → ℝ)
    (ha : ∀ b ch hh w, m ((c : Thread nD τ).loc main_arg0) (ix4 b ch hh w) = ((a b ch hh w : ℝ) : EReal))
    (t : Fin cfg0.N) (hf : (cfg0.win 2).flush t = true) :
    (dats m 0 c).flushed 2 t = ((cfg0.win 2).blk t).view.read (Elt Ideal) (G a (lab (m ((c : Thread nD τ).loc main_arg1)))) := by
  have h15 : t.val % 16 = 15 := (flush0_2 t).mp hf
  have hN : t.val < 32 := lt_of_lt_of_eq t.isLt (show cfg0.N = 32 from N_0)
  show (cfg0.win 2).cut (grid0.coords t) ((dats m 0 c).after 2 t) = _
  rw [after0_2, out_last m c t h15]
  funext y
  obtain ⟨p, r, k, rfl⟩ : ∃ (p : Fin 1) (r : Fin 8) (k : Fin 4), y = ix3 p r k := ⟨y 0, y 1, y 2, eq_ix3 y⟩
  rw [View.read_apply]
  show k0_pay2 (outsAt0 m c t.val t.isLt).2 (ix3 p r k)
    = G a (lab (m ((c : Thread nD τ).loc main_arg1))) (((cfg0.win 2).blk t).view.emb (ix3 p r k))
  -- the point is row block 15 of group t / 16
  have hg : t.val / 16 < 2 := by omega
  have ht : t.val = (pt ⟨t.val / 16, hg⟩ ⟨15, by decide⟩).val := by show t.val = 16 * (t.val / 16) + 15; omega
  -- entry (0, r, k) of the point's slab is entry (t / 16, r, k) of the array
  have hemb : ((cfg0.win 2).blk t).view.emb (ix3 p r k) = ix3 (⟨t.val / 16, hg⟩ : Fin 2) r k := by
    obtain ⟨h0, h1, h2⟩ := idx_facts2 t
    have hp := p.isLt
    funext ax; apply Fin.ext
    match ax with
    | ⟨0, _⟩ => show win0_2.index t 0 * 1 + 1 * p.val = t.val / 16; rw [h0]; omega
    | ⟨1, _⟩ => show win0_2.index t 1 * 8 + 1 * r.val = r.val; rw [h1]; omega
    | ⟨2, _⟩ => show win0_2.index t 2 * 4 + 1 * k.val = k.val; rw [h2]; omega
  rw [slab_apply, outsAt0_congr m c ht t.isLt (pt ⟨t.val / 16, hg⟩ ⟨15, by decide⟩).isLt,
    scratch_eq m c a ha ⟨t.val / 16, hg⟩ 15 (by decide) r k, hemb]
  -- the sixteen row-block sums add up to the sum over the image
  show _ = ((ksum (col k) a (lab (m ((c : Thread nD τ).loc main_arg1))) (bidx ⟨t.val / 16, hg⟩ r) : ℝ) : EReal)
  rw [ksum_eq_range]

/-- Every entry (g, r, k) of the statistics array lies in the slab written by the last point of group `g`. -/
theorem cover (i : S2x8x4.Idx) : ∃ t : Fin cfg0.N, (cfg0.win 2).flush t = true ∧ i ∈ ((cfg0.win 2).blk t).view.set := by
  have hi0 : (i 0).val < 2 := (i 0).isLt
  have hi1 : (i 1).val < 8 := (i 1).isLt
  have hi2 : (i 2).val < 4 := (i 2).isLt
  have h15 : (15 : ℕ) < 16 := by decide
  have ht : (pt ⟨(i 0).val, hi0⟩ ⟨15, h15⟩).val / 16 = (i 0).val := by show (16 * (i 0).val + 15) / 16 = (i 0).val; omega
  obtain ⟨h0, h1, h2⟩ := idx_facts2 (pt ⟨(i 0).val, hi0⟩ ⟨15, h15⟩)
  refine ⟨pt ⟨(i 0).val, hi0⟩ ⟨15, h15⟩, (flush0_2 _).mpr ?_, ?_⟩
  · show (16 * (i 0).val + 15) % 16 = 15; omega
  · show i ∈ ((View.whole main_v0).slice (win0_2.rect (pt ⟨(i 0).val, hi0⟩ ⟨15, h15⟩))).set
    rw [View.set_slice_whole, Rect.mem_set_unit]
    intro ax
    match ax with
    | ⟨0, _⟩ => show win0_2.index (pt ⟨(i 0).val, hi0⟩ ⟨15, h15⟩) 0 * 1 ≤ (i 0).val ∧ (i 0).val < win0_2.index (pt ⟨(i 0).val, hi0⟩ ⟨15, h15⟩) 0 * 1 + 1; rw [h0, ht]; omega
    | ⟨1, _⟩ => show win0_2.index (pt ⟨(i 0).val, hi0⟩ ⟨15, h15⟩) 1 * 8 ≤ (i 1).val ∧ (i 1).val < win0_2.index (pt ⟨(i 0).val, hi0⟩ ⟨15, h15⟩) 1 * 8 + 8; rw [h1]; omega
    | ⟨2, _⟩ => show win0_2.index (pt ⟨(i 0).val, hi0⟩ ⟨15, h15⟩) 2 * 4 ≤ (i 2).val ∧ (i 2).val < win0_2.index (pt ⟨(i 0).val, hi0⟩ ⟨15, h15⟩) 2 * 4 + 4; rw [h2]; omega

/-- After the sweep the statistics array holds, at (g, r, k), column `k`'s sum over the whole image of batch
    element 8g + r, for real logits. -/
theorem final (c : Dev nD) (a : Fin 16 → Fin 2 → Fin 1024 → Fin 1024 → ℝ)
    (ha : ∀ b ch hh w, m ((c : Thread nD τ).loc main_arg0) (ix4 b ch hh w) = ((a b ch hh w : ℝ) : EReal)) :
    (dats m 0 c).arrAt 2 cfg0.N = G a (lab (m ((c : Thread nD τ).loc main_arg1))) :=
  (dats m 0 c).arrAt_eq_of_cover 2 (G a (lab (m ((c : Thread nD τ).loc main_arg1)))) (flushed_eq m c a ha) cover

end Cert.KernelIdeal.KValue

end
-- ==== Proof.KernelTail.lean ====
/-
  The last stage of the block-summing program: from the [2, 8, 4] array of per-(batch element) sums to the loss.

  The array holds, for batch element `b = 8·g + r`, at `(g, r, ·)` the four sums: numerator and denominator
  of class 0 (columns 0 and 1) and of class 1 (columns 2 and 3).  The stage reads the array as a [16, 4]
  matrix (row `8·g + r`), takes its four columns, forms column 0 over (column 1 plus a small constant) and
  column 2 over (column 3 plus the constant), lays the two vectors of 16 quotients end to end, sums the 32
  entries from zero, divides by 32 and subtracts from one.

  `tail` is that composition, for any float values; `after_tail` says that it is what the program's last
  24 operations leave in the result; `tail_apply` reads it over the extended reals as `lossOf` of the
  numerators and denominators: a sum over 32 positions `16·c + b` is the double sum over `b` and `c`.
-/
import proofs.«106386_j41274635715148_2_alg».proof.Proof.Gen.KernelIdeal.Launch
import proofs.«106386_j41274635715148_2_alg».proof.Proof.DiceSpec
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost

noncomputable section

namespace Cert.KernelIdeal.Tail

open Idealize.ShloMosaic Idealize.ShloMosaic.TcCoe
open Idealize.SL Idealize.SL.RA Idealize.SL.BI
open scoped Idealize.SL.BI
open Idealize.SL.BI.BIBase Idealize.SL.Sem
open Cert.KernelIdeal Cert.KernelIdeal.Gen
open Cert.Dice Idealize.ShloMosaic.ValueIdx
open Idealize.ShloMosaic.StableHlo

variable {F : FTy → Type} [FloatOps F]

/-- Column `k` of the [2, 8, 4] array read as a [16, 4] matrix, as a vector of 16 entries. -/
def colv (K : FVec F S2x8x4 .f32) (k : Nat) (sl : S16x4.Slices ![0, k] S16x1) : FVec F S16 .f32 :=
  shapeCast S16 (extractStridedSlice S16x1 ![0, k] (shapeCast S16x4 K shapeCasts_S2x8x4_S16x4) sl) shapeCasts_S16x1_S16

/-- Entry by entry, a numerator over a denominator plus the small constant. -/
def quotv (n d : FVec F S16 .f32) : FVec F S16 .f32 :=
  Host.divf n (addf d (broadcastInDim S16 ![] bcast_S_S16 (constant S_ .f32 0x358637BD#32)))

/-- The 32 quotients: those of columns 0 and 1 followed by those of columns 2 and 3. -/
def quots (K : FVec F S2x8x4 .f32) : FVec F S32 .f32 :=
  concatenate S32 0
    [⟨S16, quotv (colv K 0 slices_S16x4_S16x1_0_0) (colv K 1 slices_S16x4_S16x1_0_1)⟩,
     ⟨S16, quotv (colv K 2 slices_S16x4_S16x1_0_2) (colv K 3 slices_S16x4_S16x1_0_3)⟩]
    concatenates_S16_S16_S32_d0

/-- One minus the mean of the 32 quotients. -/
def tail (K : (⟨S2x8x4, .f32⟩ : BufTy).Contents (Elt F)) : (⟨S_, .f32⟩ : BufTy).Contents (Elt F) :=
  subf (constant S_ .f32 0x3F800000#32)
    (Host.divf (Host.reduceAdd (quots K) (constant S_ .f32 0x00000000#32) reducesTo_S32_S_d0 h_S_)
      (constant S_ .f32 0x42000000#32))

/-- After the program's last 24 operations the result holds `tail` of the [2, 8, 4] array they started from,
    whatever the other buffers held. -/
theorem after_tail (V : Valuation τ sig (Elt F)) :
    StableHlo.after (hostOps1 (F := F)) V (Proc.devRef .tc main_v19) = tail (V (Proc.devRef .tc main_v0)) := by
  after_results
  rfl

/-- The leading coordinate of batch element `b = 8·g + r` in the [2, 8, 4] array: `g = b / 8`. -/
def gq (b : Fin 16) : Fin 2 := ⟨b.val / 8, by have := b.isLt; omega⟩
/-- The middle coordinate of batch element `b = 8·g + r` in the [2, 8, 4] array: `r = b mod 8`. -/
def rq (b : Fin 16) : Fin 8 := ⟨b.val % 8, by omega⟩
/-- The column holding the numerator of class `c`: `2·c`. -/
def ncol (c : Fin 2) : Fin 4 := ⟨2 * c.val, by have := c.isLt; omega⟩
/-- The column holding the denominator of class `c`: `2·c + 1`. -/
def dcol (c : Fin 2) : Fin 4 := ⟨2 * c.val + 1, by have := c.isLt; omega⟩

/-- Entry `b` of column `k` is the array at `(b / 8, b mod 8, k)`: row-major, row `b` of the [16, 4] matrix is
    `(g, r)` with `8·g + r = b`. -/
theorem colv_apply (K : FVec F S2x8x4 .f32) (k : Nat) (hk : k < 4) (sl : S16x4.Slices ![0, k] S16x1) (b : Fin 16) :
    colv K k sl (ix1 b) = K (ix3 (gq b) (rq b) (⟨k, hk⟩ : Fin 4)) := by
  unfold colv
  refine (shapeCast_apply _ _ (ix1 b) (ix2 b (0 : Fin 1)) ?_).trans ?_
  · rw [Shape.rowMajor_val_two, Shape.rowMajor_val_one]
    show b.val * 1 + 0 = b.val
    omega
  refine (extractStridedSlice_apply _ _ _ (ix2 b (0 : Fin 1)) (ix2 b (⟨k, hk⟩ : Fin 4)) ?_).trans ?_
  · intro a
    match a with
    | ⟨0, _⟩ => show b.val = 0 + b.val; omega
    | ⟨1, _⟩ => show k = k + 0; omega
  refine shapeCast_apply _ _ (ix2 b (⟨k, hk⟩ : Fin 4)) (ix3 (gq b) (rq b) (⟨k, hk⟩ : Fin 4)) ?_
  rw [Shape.rowMajor_val_three, Shape.rowMajor_val_two]
  show ((b.val / 8) * 8 + b.val % 8) * 4 + k = b.val * 4 + k
  omega

/-- Over the extended reals an entry of the quotient vector is `ratio` of the two entries. -/
theorem quotv_apply (n d : FVec Ideal S16 .f32) (j : S16.Idx) : quotv n d j = ratio (n j) (d j) := rfl

/-- Position `16·c + b` of the 32 quotients: quotient `b` of class `c`. -/
def pos (b : Fin 16) (c : Fin 2) : Fin 32 := ⟨16 * c.val + b.val, by have := b.isLt; have := c.isLt; omega⟩

/-- The concatenation of two vectors of 16 entries reads the first vector at position `b`. -/
theorem concat2_left {α : Type} (A B : S16.Idx → α) (h : Shape.Concatenates [S16, S16] S32 0) (b : Fin 16) (c : Fin 2)
    (hc : c.val = 0) : concatenate S32 0 [⟨S16, A⟩, ⟨S16, B⟩] h (ix1 (pos b c)) = A (ix1 b) := by
  refine concatenate_apply_piece (t := S32) (0 : Fin 1) [⟨S16, A⟩, ⟨S16, B⟩] h (ix1 (pos b c)) 0
    (by simp) S16 A rfl rfl 0 rfl (ix1 b) ?_ ?_
  · intro a ha
    match a with
    | ⟨0, _⟩ => exact absurd rfl ha
  · show 0 + b.val = 16 * c.val + b.val
    omega

/-- The concatenation of two vectors of 16 entries reads the second vector at position `16 + b`. -/
theorem concat2_right {α : Type} (A B : S16.Idx → α) (h : Shape.Concatenates [S16, S16] S32 0) (b : Fin 16) (c : Fin 2)
    (hc : c.val = 1) : concatenate S32 0 [⟨S16, A⟩, ⟨S16, B⟩] h (ix1 (pos b c)) = B (ix1 b) := by
  refine concatenate_apply_piece (t := S32) (0 : Fin 1) [⟨S16, A⟩, ⟨S16, B⟩] h (ix1 (pos b c)) 1
    (by simp) S16 B rfl rfl 16 rfl (ix1 b) ?_ ?_
  · intro a ha
    match a with
    | ⟨0, _⟩ => exact absurd rfl ha
  · show 16 + b.val = 16 * c.val + b.val
    omega

/-- Position `16·c + b` of the 32 quotients is the numerator of batch element `b` and class `c` over its
    denominator plus the small constant. -/
theorem quots_apply (K : FVec Ideal S2x8x4 .f32) (b : Fin 16) (c : Fin 2) :
    quots K (ix1 (pos b c)) = ratio (K (ix3 (gq b) (rq b) (ncol c))) (K (ix3 (gq b) (rq b) (dcol c))) := by
  unfold quots
  match c with
  | ⟨0, hc⟩ =>
    refine (concat2_left _ _ _ b ⟨0, hc⟩ rfl).trans ?_
    rw [quotv_apply, colv_apply K 0 (by omega), colv_apply K 1 (by omega)]
    rfl
  | ⟨1, hc⟩ =>
    refine (concat2_right _ _ _ b ⟨1, hc⟩ rfl).trans ?_
    rw [quotv_apply, colv_apply K 2 (by omega), colv_apply K 3 (by omega)]
    rfl

/-- The bijection `(b, c) ↦ 16·c + b` between (quotient, class) and the positions of the 32 entries. -/
def posEquiv : Fin 16 × Fin 2 ≃ S32.Idx where
  toFun p := ix1 (pos p.1 p.2)
  invFun i := (⟨(i 0).val % 16, by omega⟩, ⟨(i 0).val / 16, by have : (i 0).val < 32 := (i 0).isLt; omega⟩)
  left_inv := by
    rintro ⟨b, c⟩
    have := b.isLt; have := c.isLt
    ext <;> simp only [pos] <;> show _ = _ <;> omega
  right_inv := by
    intro i
    funext d
    match d with
    | ⟨0, _⟩ =>
      have : (i 0).val < 32 := (i 0).isLt
      apply Fin.ext
      show 16 * ((i 0).val / 16) + (i 0).val % 16 = (i 0).val
      omega

/-- A sum over the 32 positions is the double sum over the 16 batch elements and the two classes. -/
theorem sum_pos (x : S32.Idx → EReal) : ∑ i : S32.Idx, x i = ∑ b : Fin 16, ∑ c : Fin 2, x (ix1 (pos b c)) := by
  have h1 : ∑ p : Fin 16 × Fin 2, x (ix1 (pos p.1 p.2)) = ∑ i : S32.Idx, x i :=
    Fintype.sum_equiv posEquiv _ _ (fun _ => rfl)
  have h2 : ∑ p : Fin 16 × Fin 2, x (ix1 (pos p.1 p.2)) = ∑ b : Fin 16, ∑ c : Fin 2, x (ix1 (pos b c)) :=
    Fintype.sum_prod_type' (fun b c => x (ix1 (pos b c)))
  rw [← h1, h2]

/-- Over the extended reals the last stage computes `lossOf` of the numerators and denominators the array
    holds: one minus the mean of the 32 quotients. -/
theorem tail_apply (K : (⟨S2x8x4, .f32⟩ : BufTy).Contents (Elt Ideal)) (i : S_.Idx) :
    tail (F := Ideal) K i
      = lossOf (fun b c => K (ix3 (gq b) (rq b) (ncol c))) (fun b c => K (ix3 (gq b) (rq b) (dcol c))) := by
  unfold tail lossOf
  rw [subf_apply, hostDivf_apply, hostReduceAdd_apply]
  simp only [constant_apply]
  rw [Ideal.hostReduceAdd_total reducesTo_S32_S_d0 (fun b => b.elim0), sum_pos]
  simp only [quots_apply]

end Cert.KernelIdeal.Tail

end
-- ==== Proof.KernelResult.lean ====
/-
  The kernel program's result as a closed formula.  The call's result array holds, per batch element, the four sums of
  per-pixel terms over the whole image; the lines after the call turn them into one minus the mean of the 32 quotients.
-/
import proofs.«106386_j41274635715148_2_alg».proof.Proof.KernelFinal
import proofs.«106386_j41274635715148_2_alg».proof.Proof.KernelTail
import Idealize.ShloMosaic.Lib.StableHlo.Run

set_option maxRecDepth 16384

noncomputable section

open Idealize.ShloMosaic Idealize.ShloMosaic.TcCoe Idealize.SL.Sem Idealize.ShloMosaic.ValueIdx
open Idealize.ShloMosaic.Pipeline (Dat)
open scoped BigOperators

namespace Cert.KernelIdeal.KValue

open Cert.KernelIdeal Cert.KernelIdeal.Gen Cert.KernelIdeal.Pay Cert.KernelIdeal.Tail Cert.Dice

variable (m : (ℓ : Loc nD τ sig) → Buf (Elt Ideal) ℓ) (ρ : Dev nD → PrngReg)

/-- The run of the whole program with its result named: the value the lines after the call compute from the call's result
    array, the two argument arrays unchanged. -/
theorem run_value (res : (c : Dev nD) → Buf (Elt Ideal) ((c.tc : Thread nD τ).loc main_v19))
    (hres : ∀ c, Pipeline.afterTail₀ cfgs (dats m) 0 (V0 m) [hostOps1] c main_v19 = res c) :
    θ_run defs (onTc (τ := τ) (main (F := Ideal))) ⟨m, fun _ => 0, ρ⟩ (fun r => ∀ c : Dev nD,
      r.2.mem ((c.tc : Thread nD τ).loc main_v19) = res c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v19 (Pipeline.mem_restRefs_of main_v19 rfl (by decide))).trans (hres c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

/-- Batch element `b` is row `b mod 8` of group `b / 8`. -/
theorem bidx_gq_rq (b : Fin 16) : bidx (gq b) (rq b) = b := by
  apply Fin.ext
  show 8 * (b.val / 8) + b.val % 8 = b.val
  omega

/-- Columns 0 and 2 hold the numerator sums of classes 0 and 1. -/
theorem col_ncol (c : Fin 2) : col (ncol c) = ktn c := by
  match c with
  | ⟨0, _⟩ => rfl
  | ⟨1, _⟩ => rfl

/-- Columns 1 and 3 hold the denominator sums of classes 0 and 1. -/
theorem col_dcol (c : Fin 2) : col (dcol c) = ktd c := by
  match c with
  | ⟨0, _⟩ => rfl
  | ⟨1, _⟩ => rfl

/-- What the lines after the call leave in the result buffer, for real logits: the loss formula over the sigmoid-form sums. -/
theorem tail_value (c : Dev nD) (a : Fin 16 → Fin 2 → Fin 1024 → Fin 1024 → ℝ)
    (ha : ∀ b ch hh w, m ((c : Thread nD τ).loc main_arg0) (ix4 b ch hh w) = ((a b ch hh w : ℝ) : EReal)) :
    Pipeline.afterTail₀ cfgs (dats m) 0 (V0 m) [hostOps1] c main_v19
      = fun _ => lossOf (fun b cc => ((ksum (ktn cc) a (lab (m ((c : Thread nD τ).loc main_arg1))) b : ℝ) : EReal))
          (fun b cc => ((ksum (ktd cc) a (lab (m ((c : Thread nD τ).loc main_arg1))) b : ℝ) : EReal)) := by
  unfold Pipeline.afterTail₀
  simp only [List.flatten_cons, List.flatten_nil, List.append_nil]
  refine (after_tail _).trans ?_
  funext i
  refine (tail_apply _ i).trans ?_
  have hK : Pipeline.withArrays (cfgs 0).spec c (V0 m c) (fun w => (dats m 0 c).arrAt w (cfgs 0).N) (Proc.devRef .tc main_v0)
      = G a (lab (m ((c : Thread nD τ).loc main_arg1))) :=
    (Pipeline.withArrays_arr spec0 launch0.win.arr_inj c _ _ 2).trans (final m c a ha)
  rw [hK]
  unfold G
  have e0 : ∀ (x : Fin 2) (y : Fin 8) (z : Fin 4), (ix3 x y z) 0 = x := fun _ _ _ => rfl
  have e1 : ∀ (x : Fin 2) (y : Fin 8) (z : Fin 4), (ix3 x y z) 1 = y := fun _ _ _ => rfl
  have e2 : ∀ (x : Fin 2) (y : Fin 8) (z : Fin 4), (ix3 x y z) 2 = z := fun _ _ _ => rfl
  simp only [e0, e1, e2, bidx_gq_rq, col_ncol, col_dcol]

end Cert.KernelIdeal.KValue

end
-- ==== Proof.RefReduce.lean ====
/-
  Three operations of the softmax-form program read at an index: the sum over the two image axes, the
  maximum over the channel axis, and the concatenation of two one-channel arrays along the channel axis.

  An index of the four-axis array is (batch element, channel, row, column).  Summing over rows and columns
  keeps (batch element, channel); the indices that are kept as `(b, c)` are exactly the `(b, c, h, w)`, one
  for every pair `(h, w)`, so the sum over them is the double sum over `h` and `w`.  Taking the maximum
  over the channel keeps (batch element, row, column); the two indices kept as `(b, h, w)` are
  `(b, 0, h, w)` and `(b, 1, h, w)`, and starting the maximum from −∞ changes nothing.
-/
import proofs.«106386_j41274635715148_2_alg».proof.Proof.Gen.ReferenceIdeal.Read
import proofs.«106386_j41274635715148_2_alg».proof.Proof.DiceSpec
import proofs.«106386_j41274635715148_2_alg».proof.Proof.LibIdealLits
import Idealize.ShloMosaic.Lib.ValueIdx
import Idealize.ShloMosaic.PureOps.Ideal.Laws

noncomputable section

open scoped BigOperators

namespace Cert.ReferenceIdeal.RefReduce

open Cert.ReferenceIdeal Cert.ReferenceIdeal.Gen Idealize.ShloMosaic Idealize.ShloMosaic.TcCoe Idealize.SL.Sem Idealize.ShloMosaic.StableHlo
open Idealize.ShloMosaic.ValueIdx Cert.Dice

/-- The host's float sum over the two image axes, read at batch element `b` and channel `c`: the initial
    value plus the double sum over rows and columns of the operand. -/
theorem reduceAdd_hw (y : FVec Ideal S16x2x1024x1024 .f32) (init : FVec Ideal S_ .f32) (b : Fin 16) (c : Fin 2) :
    Host.reduceAdd (F := Ideal) y init reducesTo_S16x2x1024x1024_S16x2_d2_3 h_S_ (ix2 b c)
      = init ix0 + ∑ h : Fin 1024, ∑ w : Fin 1024, y (ix4 b c h w) := by
  simp only [Host.reduceAdd, Ideal.hostReduceAdd_def]
  unfold Ideal.hostReduceAdd
  -- the scalar shape has one index
  have hinit : init (Shape.Idx.first h_S_) = init ix0 := congrArg init (funext fun a => a.elim0)
  rw [hinit]
  refine congrArg (init ix0 + ·) ?_
  -- the double sum is the sum over pairs (h, w); the indices kept as (b, c) correspond to the pairs by
  -- i ↦ (i 2, i 3), with inverse (h, w) ↦ (b, c, h, w)
  refine Eq.trans ?_ (Fintype.sum_prod_type (fun p : Fin 1024 × Fin 1024 => y (ix4 b c p.1 p.2)))
  refine Finset.sum_nbij' (fun i => ((i 2, i 3) : Fin 1024 × Fin 1024)) (fun p => ix4 b c p.1 p.2) ?_ ?_ ?_ ?_ ?_
  · intro i _; exact Finset.mem_univ _
  · -- (b, c, h, w) is kept as (b, c)
    intro p _
    refine Finset.mem_filter.2 ⟨Finset.mem_univ _, ?_⟩
    funext a
    match a with
    | ⟨0, _⟩ => rfl
    | ⟨1, _⟩ => rfl
  · -- an index kept as (b, c) has batch coordinate b and channel coordinate c
    intro i hi
    have hj := (Finset.mem_filter.1 hi).2
    have h0 : (i 0).val = b.val :=
      (reducesTo_S16x2x1024x1024_S16x2_d2_3.drop_apply_val_of_eq i 0 0).symm.trans (congrArg Fin.val (congrFun hj 0))
    have h1 : (i 1).val = c.val :=
      (reducesTo_S16x2x1024x1024_S16x2_d2_3.drop_apply_val_of_eq i 1 1).symm.trans (congrArg Fin.val (congrFun hj 1))
    funext a
    apply Fin.ext
    match a with
    | ⟨0, _⟩ => exact h0.symm
    | ⟨1, _⟩ => exact h1.symm
    | ⟨2, _⟩ => rfl
    | ⟨3, _⟩ => rfl
  · intro p _; rfl
  · intro i hi
    have hj := (Finset.mem_filter.1 hi).2
    have h0 : (i 0).val = b.val :=
      (reducesTo_S16x2x1024x1024_S16x2_d2_3.drop_apply_val_of_eq i 0 0).symm.trans (congrArg Fin.val (congrFun hj 0))
    have h1 : (i 1).val = c.val :=
      (reducesTo_S16x2x1024x1024_S16x2_d2_3.drop_apply_val_of_eq i 1 1).symm.trans (congrArg Fin.val (congrFun hj 1))
    refine congrArg y (funext fun a => Fin.ext ?_)
    match a with
    | ⟨0, _⟩ => exact h0
    | ⟨1, _⟩ => exact h1
    | ⟨2, _⟩ => rfl
    | ⟨3, _⟩ => rfl

/-- A fold of a commutative and associative operation over the two-element index type: the operation applied
    to the value at 0 and to the value at 1 combined with the starting value. -/
theorem fold_two {α : Type} (op : α → α → α) [Std.Commutative op] [Std.Associative op] (e : α) (g : Fin 2 → α) :
    (Finset.univ : Finset (Fin 2)).fold op e g = op (g 0) (op (g 1) e) := by
  have hu : (Finset.univ : Finset (Fin 2)) = insert 0 {1} := by decide
  rw [hu, Finset.fold_insert (by decide), Finset.fold_singleton]

/-- The host's maximum over the channel axis starting from −∞, read at a pixel: the larger of the two
    channels' values there. -/
theorem reduceMax_c (x : FVec Ideal S16x2x1024x1024 .f32) (b : Fin 16) (h w : Fin 1024) :
    Host.reduce (FloatOps.maximumf (F := Ideal) (φ := .f32)) x (constant (F := Ideal) S_ .f32 0xFF800000#32)
        reducesTo_S16x2x1024x1024_S16x1024x1024_d1 h_S_ (ix3 b h w)
      = max (x (ix4 b 0 h w)) (x (ix4 b 1 h w)) := by
  have hr : S16x2x1024x1024.Reduces [1] S16x1024x1024 := by decide
  -- the maximum is a fold over the two channel coordinates, from the starting value
  refine (Host.reduce_eq_fold_single _ x _ reducesTo_S16x2x1024x1024_S16x1024x1024_d1 hr h_S_ (ix3 b h w)).trans ?_
  refine (fold_two _ _ _).trans ?_
  show max (x (hr.lift (ix3 b h w) (0 : Fin 2)))
      (max (x (hr.lift (ix3 b h w) (1 : Fin 2))) (Ideal.ofBits .f32 0xFF800000#32)) = _
  -- the starting value is −∞, the least extended real
  rw [Cert.StepLaw.ofBits_neginf_f32, max_bot_right]
  -- (b, h, w) with the channel coordinate k inserted is (b, k, h, w)
  have e0 : hr.lift (ix3 b h w) (0 : Fin 2) = ix4 b 0 h w := by
    funext a; apply Fin.ext
    match a with
    | ⟨0, _⟩ => rfl
    | ⟨1, _⟩ => rfl
    | ⟨2, _⟩ => rfl
    | ⟨3, _⟩ => rfl
  have e1 : hr.lift (ix3 b h w) (1 : Fin 2) = ix4 b 1 h w := by
    funext a; apply Fin.ext
    match a with
    | ⟨0, _⟩ => rfl
    | ⟨1, _⟩ => rfl
    | ⟨2, _⟩ => rfl
    | ⟨3, _⟩ => rfl
  rw [e0, e1]

/-- The concatenation of two one-channel arrays along the channel axis, read at an index: channel 0 reads
    the first array, channel 1 the second, each at the same batch element, row and column. -/
theorem concat_c {α : Type} (p q : S16x1x1024x1024.Idx → α) (b : Fin 16) (c : Fin 2) (h w : Fin 1024) :
    concatenate S16x2x1024x1024 1 [⟨S16x1x1024x1024, p⟩, ⟨S16x1x1024x1024, q⟩]
        concatenates_S16x1x1024x1024_S16x1x1024x1024_S16x2x1024x1024_d1 (ix4 b c h w)
      = pick c (p (ix4 b 0 h w)) (q (ix4 b 0 h w)) := by
  match c with
  | ⟨0, _⟩ =>
    -- channel coordinate 0 lies in the first piece, whose extent along the channel axis is 1
    refine (concatenate_pair_apply_left (1 : Fin 4) p q _ (ix4 b (0 : Fin 2) h w) rfl (ix4 b 0 h w) (fun a => ?_)).trans ?_
    · match a with
      | ⟨0, _⟩ => rfl
      | ⟨1, _⟩ => rfl
      | ⟨2, _⟩ => rfl
      | ⟨3, _⟩ => rfl
    · rfl
  | ⟨1, _⟩ =>
    -- channel coordinate 1 lies in the second piece, at its coordinate 1 − 1 = 0
    refine (concatenate_pair_apply_right (1 : Fin 4) p q _ (ix4 b (1 : Fin 2) h w) rfl rfl (ix4 b 0 h w) (fun a ha => ?_) rfl).trans ?_
    · match a with
      | ⟨0, _⟩ => rfl
      | ⟨1, _⟩ => exact absurd rfl ha
      | ⟨2, _⟩ => rfl
      | ⟨3, _⟩ => rfl
    · rfl

end Cert.ReferenceIdeal.RefReduce

end
-- ==== Proof.RefValue.lean ====
/-
  The reference computation of the two-class Dice loss, read as a closed formula over the reals.

  The reference forms one-hot targets from the labels (class 0 where the label word is zero, class 1 elsewhere),
  takes the softmax of the two logits of each pixel after subtracting the larger one, and for each batch element
  and class sums over the image the products target · probability and the terms probability² + target².  It then
  divides twice the first sum by the second plus a small constant, averages the 32 quotients and subtracts the
  mean from one.

  When every logit is a real number, every intermediate value is a real number too: the larger logit, the shifted
  exponentials (whose sum is positive, so the softmax quotient is an ordinary real quotient), the targets 0 and 1,
  the per-pixel terms and their sums over the image.  This file follows the computation value by value, each read at
  explicit coordinates, and arrives at `Cert.Dice.lossOf` applied to the real sums `rsum (rtn c)` and `rsum (rtd c)`.
  The small constant, the divisor 32, the leading 1 and the initial value of the last sum stay as the binary32
  patterns the computation names, exactly as `lossOf` and `ratio` spell them.
-/
import proofs.«106386_j41274635715148_2_alg».proof.Proof.Gen.ReferenceIdeal.Read
import proofs.«106386_j41274635715148_2_alg».proof.Proof.DiceSpec
import proofs.«106386_j41274635715148_2_alg».proof.Proof.LibMatAssoc
import proofs.«106386_j41274635715148_2_alg».proof.Proof.LibIdealLits
import proofs.«106386_j41274635715148_2_alg».proof.Proof.RefReduce
import Idealize.ShloMosaic.Lib.ValueIdx
import Idealize.ShloMosaic.PureOps.Ideal.Laws

noncomputable section

open scoped BigOperators

namespace Cert.ReferenceIdeal.RefValue

open Cert.ReferenceIdeal Cert.ReferenceIdeal.Gen Cert.ReferenceIdeal.Read Idealize.ShloMosaic Idealize.ShloMosaic.ValueIdx Cert.Dice

/-- A channel index is 0 or 1. -/
theorem fin2_cases (c : Fin 2) : c = 0 ∨ c = 1 := by
  match c with
  | ⟨0, _⟩ => exact Or.inl rfl
  | ⟨1, _⟩ => exact Or.inr rfl

/-- The one-hot target of class `c` at a pixel, as a real: class 0 is one minus the label indicator, class 1 the indicator. -/
theorem targets (x1 : (⟨S16x1x1024x1024, .i32⟩ : BufTy).Contents (Elt Ideal)) (b : Fin 16) (c : Fin 2) (h w : Fin 1024) :
    val_main_v5 (F := Ideal) x1 (ix4 b c h w) = ((pick c (1 - lab x1 b h w) (lab x1 b h w) : ℝ) : EReal) := by
  rw [val_main_v5_apply]
  unfold val_main_v4
  rw [RefReduce.concat_c]
  rw [val_main_v3_apply, val_main_v2_apply, val_main_v1_apply, val_main_v0_apply, val_main_c_apply]
  show (((pick c (~~~IntOp.cmpi CmpIPredicate.ne (x1 (ix4 b 0 h w)) 0#32)
        (IntOp.cmpi CmpIPredicate.ne (x1 (ix4 b 0 h w)) 0#32)).toNat : ℝ) : EReal) = _
  by_cases hz : x1 (ix4 b 0 h w) = 0#32
  · have hl : lab x1 b h w = 0 := by unfold lab; rw [if_pos hz]
    have hc : IntOp.cmpi CmpIPredicate.ne (x1 (ix4 b 0 h w)) 0#32 = 0#1 := by
      rw [hz]; rfl
    rw [hl, hc]
    rcases fin2_cases c with rfl | rfl
    · simp [pick]
    · simp [pick]
  · have hl : lab x1 b h w = 1 := by unfold lab; rw [if_neg hz]
    have hc : IntOp.cmpi CmpIPredicate.ne (x1 (ix4 b 0 h w)) 0#32 = 1#1 := by
      unfold IntOp.cmpi
      rw [show (x1 (ix4 b 0 h w) != 0#32) = true from bne_iff_ne.mpr hz]; rfl
    rw [hl, hc]
    rcases fin2_cases c with rfl | rfl
    · simp [pick]
    · simp [pick]

/-- Broadcasting along the channel axis reads the one-channel array at channel 0. -/
theorem idx10_at (b : Fin 16) (c : Fin 2) (h w : Fin 1024) :
    idx_main_v10 (ix4 b c h w) = (ix4 b (0 : Fin 1) h w : S16x1x1024x1024.Idx) :=
  funext fun a => Fin.ext (by match a with | ⟨0, _⟩ => rfl | ⟨1, _⟩ => rfl | ⟨2, _⟩ => rfl | ⟨3, _⟩ => rfl)
/-- Inserting the unit channel axis reads the three-axis array at the remaining coordinates. -/
theorem idx9_at (b : Fin 16) (h w : Fin 1024) :
    idx_main_v9 (ix4 b (0 : Fin 1) h w : S16x1x1024x1024.Idx) = (ix3 b h w : S16x1024x1024.Idx) :=
  funext fun a => Fin.ext (by match a with | ⟨0, _⟩ => rfl | ⟨1, _⟩ => rfl | ⟨2, _⟩ => rfl)
/-- The second broadcast along the channel axis reads at channel 0 as well. -/
theorem idx15_at (b : Fin 16) (c : Fin 2) (h w : Fin 1024) :
    idx_main_v15 (ix4 b c h w) = (ix4 b (0 : Fin 1) h w : S16x1x1024x1024.Idx) :=
  funext fun a => Fin.ext (by match a with | ⟨0, _⟩ => rfl | ⟨1, _⟩ => rfl | ⟨2, _⟩ => rfl | ⟨3, _⟩ => rfl)
/-- The second insertion of the unit channel axis reads at the remaining coordinates as well. -/
theorem idx14_at (b : Fin 16) (h w : Fin 1024) :
    idx_main_v14 (ix4 b (0 : Fin 1) h w : S16x1x1024x1024.Idx) = (ix3 b h w : S16x1024x1024.Idx) :=
  funext fun a => Fin.ext (by match a with | ⟨0, _⟩ => rfl | ⟨1, _⟩ => rfl | ⟨2, _⟩ => rfl)
/-- The summand of the channel sum at channel `k`. -/
theorem idx13_at (b : Fin 16) (h w : Fin 1024) (k : Fin 2) :
    idx_main_v13 (ix3 b h w : S16x1024x1024.Idx) k = (ix4 b k h w : S16x2x1024x1024.Idx) :=
  funext fun a => Fin.ext (by match a with | ⟨0, _⟩ => rfl | ⟨1, _⟩ => rfl | ⟨2, _⟩ => rfl | ⟨3, _⟩ => rfl)

/-- The coercion of the larger of two reals is the larger of the coercions. -/
theorem coe_max (x y : ℝ) : ((max x y : ℝ) : EReal) = max (x : EReal) (y : EReal) :=
  EReal.coe_strictMono.monotone.map_max

section Softmax
variable (x0 : (⟨S16x2x1024x1024, .f32⟩ : BufTy).Contents (Elt Ideal))
  (a : Fin 16 → Fin 2 → Fin 1024 → Fin 1024 → ℝ) (hx : ∀ b c h w, x0 (ix4 b c h w) = ((a b c h w : ℝ) : EReal))
include hx

/-- The shift of the softmax at a pixel is the larger of the two logits. -/
theorem v8_at (b : Fin 16) (h w : Fin 1024) :
    val_main_v8 (F := Ideal) x0 (ix3 b h w) = ((max (a b 0 h w) (a b 1 h w) : ℝ) : EReal) := by
  rw [val_main_v8_apply, val_main_v7_apply, val_main_cst_0_apply]
  unfold val_main_v6 val_main_cst
  rw [RefReduce.reduceMax_c, hx, hx, Ideal.maximumf_def, Ideal.ofBits_def, Cert.StepLaw.ofBits_neginf_f32,
    max_eq_right bot_le, ← coe_max]

/-- The exponential of a logit minus the larger logit. -/
theorem v12_at (b : Fin 16) (c : Fin 2) (h w : Fin 1024) :
    val_main_v12 (F := Ideal) x0 (ix4 b c h w)
      = ((Real.exp (a b c h w - max (a b 0 h w) (a b 1 h w)) : ℝ) : EReal) := by
  rw [val_main_v12_apply, val_main_v11_apply, val_main_v10_apply, val_main_v9_apply, idx10_at, idx9_at,
    v8_at x0 a hx, hx, Ideal.subf_def, ← EReal.coe_sub, Ideal.hostUnary_exp_def, Ideal.exp_coe]

/-- The softmax denominator at a pixel: the sum of the two shifted exponentials. -/
theorem v13_at (b : Fin 16) (h w : Fin 1024) :
    val_main_v13 (F := Ideal) x0 (ix3 b h w)
      = ((Real.exp (a b 0 h w - max (a b 0 h w) (a b 1 h w)) + Real.exp (a b 1 h w - max (a b 0 h w) (a b 1 h w)) : ℝ) : EReal) := by
  rw [val_main_v13_apply, Fin.sum_univ_two, idx13_at, idx13_at, v12_at x0 a hx, v12_at x0 a hx, val_main_cst_1_apply,
    Ideal.ofBits_def, Ideal.ofBits_zero_f32, zero_add, ← EReal.coe_add]

/-- The softmax probability of class `c` at a pixel. -/
theorem softmax_at (b : Fin 16) (c : Fin 2) (h w : Fin 1024) :
    val_main_v16 (F := Ideal) x0 (ix4 b c h w)
      = ((pick c (sm0 (a b 0 h w) (a b 1 h w)) (sm1 (a b 0 h w) (a b 1 h w)) : ℝ) : EReal) := by
  rw [val_main_v16_apply, val_main_v15_apply, val_main_v14_apply, idx15_at, idx14_at, v13_at x0 a hx, v12_at x0 a hx,
    Ideal.hostDivf_def, Ideal.div_coe (ne_of_gt (by positivity)), ← EReal.coe_mul]
  refine congrArg _ ?_
  rcases fin2_cases c with rfl | rfl
  · simp only [pick, sm0, if_pos]; exact mul_one_div _ _
  · simp only [pick, sm1]; rw [if_neg (by decide)]; exact mul_one_div _ _

end Softmax

/-- The binary32 pattern of 2.0 denotes the real number 2. -/
theorem ofBits_two_f32 : Ideal.ofBits .f32 0x40000000#32 = ((2 : ℝ) : EReal) := by
  simp [Ideal.ofBits, Ideal.ieee]
  norm_num
  rw [← EReal.coe_mul]
  congr 1
  norm_num

section Terms
variable (x0 : (⟨S16x2x1024x1024, .f32⟩ : BufTy).Contents (Elt Ideal))
  (x1 : (⟨S16x1x1024x1024, .i32⟩ : BufTy).Contents (Elt Ideal))
  (a : Fin 16 → Fin 2 → Fin 1024 → Fin 1024 → ℝ) (hx : ∀ b c h w, x0 (ix4 b c h w) = ((a b c h w : ℝ) : EReal))
include hx

/-- The numerator term at a pixel: target times probability. -/
theorem v17_at (b : Fin 16) (c : Fin 2) (h w : Fin 1024) :
    val_main_v17 (F := Ideal) x0 x1 (ix4 b c h w)
      = ((rtn c (a b 0 h w) (a b 1 h w) (lab x1 b h w) : ℝ) : EReal) := by
  rw [val_main_v17_apply, targets, softmax_at x0 a hx, Ideal.mulf_def, ← EReal.coe_mul]
  refine congrArg _ ?_
  unfold rtn pick
  split_ifs <;> rfl

/-- The denominator term at a pixel: probability squared plus target squared. -/
theorem v23_at (b : Fin 16) (c : Fin 2) (h w : Fin 1024) :
    val_main_v23 (F := Ideal) x0 x1 (ix4 b c h w)
      = ((rtd c (a b 0 h w) (a b 1 h w) (lab x1 b h w) : ℝ) : EReal) := by
  rw [val_main_v23_apply, val_main_v21_apply, val_main_v22_apply, targets, softmax_at x0 a hx, Ideal.addf_def,
    Ideal.mulf_def, Ideal.mulf_def, ← EReal.coe_mul, ← EReal.coe_mul, ← EReal.coe_add]
  refine congrArg _ ?_
  unfold rtd pick
  split_ifs <;> rfl

/-- The numerator sum of batch element `b` and class `c`: the real sum of the numerator terms over the image. -/
theorem v18_at (b : Fin 16) (c : Fin 2) :
    val_main_v18 (F := Ideal) x0 x1 (ix2 b c) = ((rsum (rtn c) a (lab x1) b : ℝ) : EReal) := by
  unfold val_main_v18
  rw [RefReduce.reduceAdd_hw, val_main_cst_2_apply, Ideal.ofBits_def, Ideal.ofBits_zero_f32, zero_add]
  unfold rsum
  rw [MatAssoc.coe_sum]
  refine Finset.sum_congr rfl fun h _ => ?_
  rw [MatAssoc.coe_sum]
  exact Finset.sum_congr rfl fun w _ => v17_at x0 x1 a hx b c h w

/-- The denominator sum of batch element `b` and class `c`: the real sum of the denominator terms over the image. -/
theorem v24_at (b : Fin 16) (c : Fin 2) :
    val_main_v24 (F := Ideal) x0 x1 (ix2 b c) = ((rsum (rtd c) a (lab x1) b : ℝ) : EReal) := by
  unfold val_main_v24
  rw [RefReduce.reduceAdd_hw, val_main_cst_4_apply, Ideal.ofBits_def, Ideal.ofBits_zero_f32, zero_add]
  unfold rsum
  rw [MatAssoc.coe_sum]
  refine Finset.sum_congr rfl fun h _ => ?_
  rw [MatAssoc.coe_sum]
  exact Finset.sum_congr rfl fun w _ => v23_at x0 x1 a hx b c h w

/-- Twice the numerator sum. -/
theorem v20_at (b : Fin 16) (c : Fin 2) :
    val_main_v20 (F := Ideal) x0 x1 (ix2 b c) = ((2 * rsum (rtn c) a (lab x1) b : ℝ) : EReal) := by
  rw [val_main_v20_apply, val_main_v19_apply, val_main_cst_3_apply, v18_at x0 x1 a hx, Ideal.mulf_def, Ideal.ofBits_def,
    ofBits_two_f32, ← EReal.coe_mul]

/-- The quotient of batch element `b` and class `c`: twice the numerator sum over the denominator sum plus the small constant. -/
theorem v27_at (b : Fin 16) (c : Fin 2) :
    val_main_v27 (F := Ideal) x0 x1 (ix2 b c)
      = ratio ((2 * rsum (rtn c) a (lab x1) b : ℝ) : EReal) ((rsum (rtd c) a (lab x1) b : ℝ) : EReal) := by
  rw [val_main_v27_apply, val_main_v26_apply, val_main_v25_apply, val_main_cst_5_apply, v20_at x0 x1 a hx,
    v24_at x0 x1 a hx, Ideal.hostDivf_def, Ideal.addf_def, Ideal.ofBits_def]
  rfl

end Terms

/-- The reference program's result on real logits: one minus the mean over the 32 (batch element, class) pairs of
    twice the numerator sum over the denominator sum plus the small constant, the sums taken over the reals. -/
theorem ref_value (x0 : (⟨S16x2x1024x1024, .f32⟩ : BufTy).Contents (Elt Ideal)) (x1 : (⟨S16x1x1024x1024, .i32⟩ : BufTy).Contents (Elt Ideal))
    (a : Fin 16 → Fin 2 → Fin 1024 → Fin 1024 → ℝ) (hx : ∀ b c h w, x0 (ix4 b c h w) = ((a b c h w : ℝ) : EReal)) (i : S_.Idx) :
    val_main_v30 (F := Ideal) x0 x1 i
      = lossOf (fun b c => ((2 * rsum (rtn c) a (lab x1) b : ℝ) : EReal)) (fun b c => ((rsum (rtd c) a (lab x1) b : ℝ) : EReal)) := by
  rw [val_main_v30_apply, val_main_v29_apply, val_main_v28_apply, val_main_cst_8_apply, val_main_cst_7_apply,
    val_main_cst_6_apply, ValueIdx.sum_idx2]
  simp only [v27_at x0 x1 a hx, Ideal.subf_def, Ideal.hostDivf_def, Ideal.ofBits_def]
  rfl

end Cert.ReferenceIdeal.RefValue

end
-- ==== Proof.DiceAlgebra.lean ====
/-
  The algebra relating the two forms of the per-pixel Dice terms and of their sums.

  * The two-class softmax shifted by the larger logit is the sigmoid of the logit difference:
    multiplying numerator and denominator of `e^{u-m} / (e^{u-m} + e^{v-m})` by `e^{m-u}` gives
    `1 / (1 + e^{-(u-v)})`; the class-1 probability is the complement.
  * A sum over the 1024 rows of an image equals the sum over 16 row blocks of 64 rows each, because
    `(hb, s) ↦ 64·hb + s` is a bijection from `Fin 16 × Fin 64` onto `Fin 1024`.
  * On labels in `{0, 1}` the squares `l·l` and `(1-l)·(1-l)` are `l` and `1-l`.
-/
import proofs.«106386_j41274635715148_2_alg».proof.Proof.DiceSpec

noncomputable section

open scoped BigOperators

namespace Cert.Dice

/-- The exponential of the second shifted logit is that of the first times `e^{-(u-v)}`. -/
theorem exp_shift (u v m : ℝ) : Real.exp (v - m) = Real.exp (u - m) * Real.exp (0 - (u - v)) := by
  rw [← Real.exp_add]; congr 1; ring

/-- The shifted softmax probability of class 0 equals the sigmoid of the logit difference. -/
theorem sm0_eq_sg (u v : ℝ) : sm0 u v = sg u v := by
  unfold sm0 sg
  rw [exp_shift u v (max u v)]
  have h1 : Real.exp (u - max u v) ≠ 0 := Real.exp_ne_zero _
  have h2 : (1 + Real.exp (0 - (u - v))) ≠ 0 := by positivity
  field_simp

/-- The shifted softmax probability of class 1 equals one minus the sigmoid of the logit difference. -/
theorem sm1_eq_sg (u v : ℝ) : sm1 u v = 1 - sg u v := by
  unfold sm1 sg
  rw [exp_shift u v (max u v)]
  have h1 : Real.exp (u - max u v) ≠ 0 := Real.exp_ne_zero _
  have h2 : (1 + Real.exp (0 - (u - v))) ≠ 0 := by positivity
  field_simp
  ring

/-- The bijection `(hb, s) ↦ 64·hb + s` between (row block, row in block) and the row of the image. -/
def rowEquiv : Fin 16 × Fin 64 ≃ Fin 1024 where
  toFun p := hrow p.1 p.2
  invFun h := (⟨h.val / 64, by have := h.isLt; omega⟩, ⟨h.val % 64, by omega⟩)
  left_inv := by
    rintro ⟨hb, s⟩
    have := hb.isLt; have := s.isLt
    ext <;> simp only [hrow] <;> omega
  right_inv := by
    intro h
    have := h.isLt
    ext; simp only [hrow]; omega

/-- A sum over the 1024 rows is the sum over the 16 row blocks of the sums over their 64 rows. -/
theorem sum_rows (g : Fin 1024 → ℝ) :
    ∑ h : Fin 1024, g h = ∑ hb : Fin 16, ∑ s : Fin 64, g (hrow hb s) := by
  have h1 : ∑ p : Fin 16 × Fin 64, g (hrow p.1 p.2) = ∑ h : Fin 1024, g h :=
    Fintype.sum_equiv rowEquiv _ _ (fun _ => rfl)
  have h2 : ∑ p : Fin 16 × Fin 64, g (hrow p.1 p.2) = ∑ hb : Fin 16, ∑ s : Fin 64, g (hrow hb s) :=
    Fintype.sum_prod_type' (fun hb s => g (hrow hb s))
  rw [← h1, h2]

/-- Summing a per-pixel term over all rows at once or row block by row block gives the same value. -/
theorem rsum_eq_ksum (f : ℝ → ℝ → ℝ → ℝ) (a : Fin 16 → Fin 2 → Fin 1024 → Fin 1024 → ℝ)
    (l : Fin 16 → Fin 1024 → Fin 1024 → ℝ) (b : Fin 16) : rsum f a l b = ksum f a l b := by
  unfold rsum ksum
  exact sum_rows (fun h => ∑ w : Fin 1024, f (a b 0 h w) (a b 1 h w) (l b h w))

/-- If two per-pixel terms agree up to a constant factor at every pixel, so do their block sums. -/
theorem ksum_congr_mul (k : ℝ) (f g : ℝ → ℝ → ℝ → ℝ) (a : Fin 16 → Fin 2 → Fin 1024 → Fin 1024 → ℝ)
    (l : Fin 16 → Fin 1024 → Fin 1024 → ℝ) (b : Fin 16)
    (h : ∀ hh w, k * f (a b 0 hh w) (a b 1 hh w) (l b hh w) = g (a b 0 hh w) (a b 1 hh w) (l b hh w)) :
    k * ksum f a l b = ksum g a l b := by
  unfold ksum
  rw [Finset.mul_sum]
  refine Finset.sum_congr rfl (fun hb _ => ?_)
  rw [Finset.mul_sum]
  refine Finset.sum_congr rfl (fun s _ => ?_)
  rw [Finset.mul_sum]
  exact Finset.sum_congr rfl (fun w _ => h (hrow hb s) w)

/-- Twice the softmax-form numerator term is the sigmoid-form numerator term. -/
theorem two_rtn (c : Fin 2) (u v l : ℝ) : 2 * rtn c u v l = ktn c u v l := by
  fin_cases c
  · simp only [rtn, ktn, pick, sm0_eq_sg]; simp; ring
  · simp only [rtn, ktn, pick, sm1_eq_sg]; simp; ring

/-- On a label in `{0, 1}` the softmax-form denominator term is the sigmoid-form denominator term. -/
theorem rtd_eq_ktd (c : Fin 2) (u v l : ℝ) (hl : l = 0 ∨ l = 1) : rtd c u v l = ktd c u v l := by
  fin_cases c
  · simp only [rtd, ktd, pick, sm0_eq_sg]
    rcases hl with h | h <;> subst h <;> simp
  · simp only [rtd, ktd, pick, sm1_eq_sg]
    rcases hl with h | h <;> subst h <;> simp

/-- Twice the all-rows sum of the softmax-form numerator terms is the block sum of the sigmoid-form ones. -/
theorem num_eq (a : Fin 16 → Fin 2 → Fin 1024 → Fin 1024 → ℝ) (l : Fin 16 → Fin 1024 → Fin 1024 → ℝ)
    (hl : ∀ b h w, l b h w = 0 ∨ l b h w = 1) (b : Fin 16) (c : Fin 2) :
    2 * rsum (rtn c) a l b = ksum (ktn c) a l b := by
  have _ := hl
  rw [rsum_eq_ksum]
  exact ksum_congr_mul 2 (rtn c) (ktn c) a l b (fun hh w => two_rtn c _ _ _)

/-- The all-rows sum of the softmax-form denominator terms is the block sum of the sigmoid-form ones. -/
theorem den_eq (a : Fin 16 → Fin 2 → Fin 1024 → Fin 1024 → ℝ) (l : Fin 16 → Fin 1024 → Fin 1024 → ℝ)
    (hl : ∀ b h w, l b h w = 0 ∨ l b h w = 1) (b : Fin 16) (c : Fin 2) :
    rsum (rtd c) a l b = ksum (ktd c) a l b := by
  rw [rsum_eq_ksum]
  have h := ksum_congr_mul 1 (rtd c) (ktd c) a l b
    (fun hh w => by rw [one_mul]; exact rtd_eq_ktd c _ _ _ (hl b hh w))
  rwa [one_mul] at h

end Cert.Dice

end
-- ==== Proof.Finite.lean ====
/-
  Finiteness of the float input, read out of the certificate's precondition.

  The precondition takes the absolute value of every entry of the float input, compares it with `+∞` and
  takes the conjunction over all entries; the claim states that the conjunction is true.  Hence every
  entry `x` satisfies `max x (-x) < ⊤` in the extended reals, which excludes both `⊤` and `⊥`: every
  entry is (the coercion of) a real number.
-/
import proofs.«106386_j41274635715148_2_alg».proof.Pre_finite_inputs
import proofs.«106386_j41274635715148_2_alg».proof.Proof.Gen.Pre_finite_inputs
import Idealize.ShloMosaic.PureOps.Ideal
import Idealize.ShloMosaic.PureOps.Ideal.Laws
import Idealize.ShloMosaic.Lib.ReduceAll
import Idealize.ShloMosaic.Lib.ValueIdx

noncomputable section

namespace Cert.Dice.Finite

open Idealize.ShloMosaic Idealize.ShloMosaic.ValueIdx
open Cert.Pre_finite_inputs

/-- The shape of rank zero has exactly one index. -/
instance subsingleton_scalar_idx : Subsingleton S_.Idx := ⟨fun _ _ => funext fun d => d.elim0⟩

/-- The f32 word with all exponent bits set and zero fraction denotes `+∞`. -/
theorem ofBits_posinf_f32 : Ideal.ofBits .f32 0x7F800000#32 = (⊤ : EReal) := by
  simp [Ideal.ofBits, Ideal.ieee]

/-- An extended real whose absolute value `max x (-x)` is below `+∞` is a real number. -/
theorem real_of_abs_lt_top (x : EReal) (h : max x (-x) < ⊤) : ∃ r : ℝ, x = (r : EReal) := by
  induction x using EReal.rec with
  | bot => simp at h
  | coe r => exact ⟨r, rfl⟩
  | top => simp at h

/-- Under the precondition, the absolute value of every entry of the float input is below `+∞`. -/
theorem abs_lt_top_of_pre [Cert.Pre_finite_inputs.Facts]
    (x0 : (⟨4, ![16, 2, 1024, 1024]⟩ : Shape).Idx → EReal) (x1 : (⟨4, ![16, 1, 1024, 1024]⟩ : Shape).Idx → BitVec 32)
    (h : Cert.Pre_finite_inputs.fn (F := Ideal) x0 x1 = fun _ => 1#1) (i : (⟨4, ![16, 2, 1024, 1024]⟩ : Shape).Idx) :
    max (x0 i) (-(x0 i)) < (⊤ : EReal) := by
  have e := congrFun h ValueIdx.ix0
  dsimp only [Cert.Pre_finite_inputs.fn] at e
  have e2 := Host.reduce_andi_all _ _ _ _ _ e i
  have e3 : BitVec.ofBool (decide (max (x0 i) (-(x0 i)) < Ideal.ofBits .f32 0x7F800000#32)) = 1#1 := e2
  rw [ofBits_posinf_f32] at e3
  by_contra hn
  rw [decide_eq_false hn] at e3
  exact absurd e3 (by decide)

/-- Under the precondition, the float input is the coercion of an array of real numbers. -/
theorem real_of_pre [Cert.Pre_finite_inputs.Facts]
    (x0 : (⟨4, ![16, 2, 1024, 1024]⟩ : Shape).Idx → EReal) (x1 : (⟨4, ![16, 1, 1024, 1024]⟩ : Shape).Idx → BitVec 32)
    (h : Cert.Pre_finite_inputs.fn (F := Ideal) x0 x1 = fun _ => 1#1) :
    ∃ a : Fin 16 → Fin 2 → Fin 1024 → Fin 1024 → ℝ,
      ∀ b c hh w, x0 (ValueIdx.ix4 b c hh w) = ((a b c hh w : ℝ) : EReal) := by
  refine ⟨fun b c hh w => (x0 (ValueIdx.ix4 b c hh w)).toReal, fun b c hh w => ?_⟩
  obtain ⟨r, hr⟩ := real_of_abs_lt_top _ (abs_lt_top_of_pre x0 x1 h (ValueIdx.ix4 b c hh w))
  show x0 (ValueIdx.ix4 b c hh w) = (((x0 (ValueIdx.ix4 b c hh w)).toReal : ℝ) : EReal)
  rw [hr, EReal.toReal_coe]

end Cert.Dice.Finite

end
-- ==== Proof.lean ====
/-
  The Dice loss of a two-class segmentation computed two ways is one number.

  The kernel program takes the probability of class 0 at a pixel to be the sigmoid of the difference of the two
  logits and that of class 1 its complement, accumulates per batch element four sums over the image — row block by
  row block across its grid, in a scratch that is zeroed at the first block of a sweep and copied out at the last —
  and, after the call, forms the quotients numerator / (denominator + ε), averages the 32 of them and subtracts
  from one.  The reference takes the softmax of the two logits shifted by the larger, builds one-hot targets from the
  labels, sums over the whole image at once and forms the same quotients.  For finite (real) logits the sigmoid of
  the difference IS the softmax probability, a target is its own square, the factor two passes through the sum, and
  the 1024 rows are the 16 blocks of 64 rows; so the two numerator sums and the two denominator sums agree as real
  numbers, and the final formula — the same operations on the same literal words on both sides — gives equal results.
  Finiteness of the logits, the certificate's precondition, is what makes every quantity a real number.
-/
import proofs.«106386_j41274635715148_2_alg».proof.Defs
import proofs.«106386_j41274635715148_2_alg».proof.Proof.Gen.Kernel
import proofs.«106386_j41274635715148_2_alg».proof.Proof.Gen.Kernel.Frame
import proofs.«106386_j41274635715148_2_alg».proof.Proof.Gen.KernelIdeal
import proofs.«106386_j41274635715148_2_alg».proof.Proof.Gen.KernelIdeal.Frame
import proofs.«106386_j41274635715148_2_alg».proof.Proof.Gen.ReferenceIdeal
import proofs.«106386_j41274635715148_2_alg».proof.Proof.Gen.ReferenceIdeal.Run
import proofs.«106386_j41274635715148_2_alg».proof.Proof.Gen.ReferenceIdeal.Read
import proofs.«106386_j41274635715148_2_alg».proof.Proof.Gen.Pre_finite_inputs
import proofs.«106386_j41274635715148_2_alg».proof.Proof.KernelResult
import proofs.«106386_j41274635715148_2_alg».proof.Proof.RefValue
import proofs.«106386_j41274635715148_2_alg».proof.Proof.DiceAlgebra
import proofs.«106386_j41274635715148_2_alg».proof.Proof.Finite
import Idealize.ShloMosaic.Adequacy
import Idealize.ShloMosaic.Init

noncomputable section

namespace Cert.Proof

open Idealize.ShloMosaic Idealize.SL.Sem Idealize.ShloMosaic.ValueIdx Cert.Dice

/-- The word-level kernel runs and leaves its arguments unchanged: the generated frame. -/
theorem frame_k : Cert.frame_Kernel := fun m ρ _ => Cert.Kernel.Gen.frame m ρ

/-- The idealized kernel runs and leaves its arguments unchanged: the generated frame. -/
theorem frame_ki : Cert.frame_KernelIdeal := fun m ρ _ => Cert.KernelIdeal.Gen.frame m ρ

/-- The reference runs and leaves its arguments unchanged: its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- For finite logits both programs end at the loss formula over the same four sums per batch element. -/
theorem algebraic : Cert.algebraic_KernelIdeal_ReferenceIdeal := by
  intro m ρ m' ρ' hpre hagree
  have hfin : ∀ c : Dev Cert.KernelIdeal.nD, ∃ a : Fin 16 → Fin 2 → Fin 1024 → Fin 1024 → ℝ, ∀ b ch hh w,
      m ((c.tc : Thread Cert.KernelIdeal.nD Cert.KernelIdeal.τ).loc Cert.KernelIdeal.main_arg0) (ix4 b ch hh w) = ((a b ch hh w : ℝ) : EReal) :=
    fun c => Cert.Dice.Finite.real_of_pre _ _ (hpre c)
  choose a ha using hfin
  refine ⟨_, Cert.KernelIdeal.KValue.run_value m ρ _ (fun c => Cert.KernelIdeal.KValue.tail_value m c (a c) (ha c)), ?_⟩
  refine (θ_run Cert.ReferenceIdeal.defs _ _).mono (fun _ h c => ⟨(h c).1.trans ?_, (h c).2.1, (h c).2.2⟩)
    (Cert.ReferenceIdeal.Value.run (F := Ideal) m' ρ')
  rw [Cert.ReferenceIdeal.Read.val_main_v30_eq, (hagree c).1, (hagree c).2]
  funext i
  rw [Cert.ReferenceIdeal.RefValue.ref_value _ _ (a c) (ha c) i]
  simp only [num_eq (a c) _ (lab_zero_or_one _), den_eq (a c) _ (lab_zero_or_one _)]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
